-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S10000 : Shape := ⟨1, ![10000]⟩
abbrev S128x256 : Shape := ⟨2, ![128, 256]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S10000 : S_.BroadcastsInDim S10000 (![] : Fin 0 → Fin S10000.rank)
  reducesTo_S10000_S_d0 : S10000.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128x256 .f32) (main_arg6 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S10000x128 .f32) (main_arg1 : FVec F S10000x10000 .f32) (main_arg2 : FVec F S10000 .f32) (main_arg3 : FVec F S128x256 .f32) (main_arg4 : FVec F S128 .f32) (main_arg5 : FVec F S128x256 .f32) (main_arg6 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000 .f32 := Host.absf main_arg2
  let main_cst_2 : FVec F S_ .f32 := constant S_ .f32 0x7F800000#32
  let main_v10 : FVec F S10000 .f32 := broadcastInDim S10000 ![] bcast_S_S10000 main_cst_2
  let main_v11 : IVec S10000 1 := cmpf .olt main_v9 main_v10
  let main_c_3 : IVec S_ 1 := constantI S_ 1 1#1
  let main_v12 : IVec S_ 1 := (fun x v => Host.reduce IntOp.andi x v reducesTo_S10000_S_d0 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_v13 main_v16
-- ==== Kernel.lean ====
abbrev S10000x128 : Shape := ⟨2, ![10000, 128]⟩
abbrev S10000x10000 : Shape := ⟨2, ![10000, 10000]⟩
abbrev S10000 : Shape := ⟨1, ![10000]⟩
abbrev S128x256 : Shape := ⟨2, ![128, 256]⟩
abbrev S128 : Shape := ⟨1, ![128]⟩
abbrev S10000x1 : Shape := ⟨2, ![10000, 1]⟩
abbrev S128x128 : Shape := ⟨2, ![128, 128]⟩
abbrev S1x128 : Shape := ⟨2, ![1, 128]⟩
abbrev S10000x256 : Shape := ⟨2, ![10000, 256]⟩
abbrev S400x128 : Shape := ⟨2, ![400, 128]⟩
abbrev S400x10000 : Shape := ⟨2, ![400, 10000]⟩
abbrev S400x1 : Shape := ⟨2, ![400, 1]⟩
abbrev S400x256 : Shape := ⟨2, ![400, 256]⟩

abbrev nBuf : Space → Nat
  | .hbm => 20
  | .vmem => 26
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000, .f32⟩
  | .hbm, ⟨3, _⟩ => ⟨S128x256, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S10000x1, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S128x128, .f32⟩
  | .hbm, ⟨13, _⟩ => ⟨S128x128, .f32⟩
  | .hbm, ⟨14, _⟩ => ⟨S128x128, .f32⟩
  | .hbm, ⟨15, _⟩ => ⟨S128x128, .f32⟩
  | .hbm, ⟨16, _⟩ => ⟨S1x128, .f32⟩
  | .hbm, ⟨17, _⟩ => ⟨S10000x128, .f32⟩
  | .hbm, ⟨18, _⟩ => ⟨S1x128, .f32⟩
  | .hbm, ⟨19, _⟩ => ⟨S10000x256, .f32⟩
  | .local _ .vmem, ⟨0, _⟩ => ⟨S400x128, .f32⟩
  | .local _ .vmem, ⟨1, _⟩ => ⟨S400x128, .f32⟩
  | .local _ .vmem, ⟨2, _⟩ => ⟨S400x10000, .f32⟩
  | .local _ .vmem, ⟨3, _⟩ => ⟨S400x10000, .f32⟩
  | .local _ .vmem, ⟨4, _⟩ => ⟨S10000x128, .f32⟩
  | .local _ .vmem, ⟨5, _⟩ => ⟨S400x1, .f32⟩
  | .local _ .vmem, ⟨6, _⟩ => ⟨S400x1, .f32⟩
  | .local _ .vmem, ⟨7, _⟩ => ⟨S128x128, .f32⟩
  | .local _ .vmem, ⟨8, _⟩ => ⟨S128x128, .f32⟩
  | .local _ .vmem, ⟨9, _⟩ => ⟨S1x128, .f32⟩
  | .local _ .vmem, ⟨10, _⟩ => ⟨S400x128, .f32⟩
  | .local _ .vmem, ⟨11, _⟩ => ⟨S400x128, .f32⟩
  | .local _ .vmem, ⟨12, _⟩ => ⟨S400x128, .f32⟩
  | .local _ .vmem, ⟨13, _⟩ => ⟨S400x128, .f32⟩
  | .local _ .vmem, ⟨14, _⟩ => ⟨S400x10000, .f32⟩
  | .local _ .vmem, ⟨15, _⟩ => ⟨S400x10000, .f32⟩
  | .local _ .vmem, ⟨16, _⟩ => ⟨S10000x128, .f32⟩
  | .local _ .vmem, ⟨17, _⟩ => ⟨S400x1, .f32⟩
  | .local _ .vmem, ⟨18, _⟩ => ⟨S400x1, .f32⟩
  | .local _ .vmem, ⟨19, _⟩ => ⟨S128x128, .f32⟩
  | .local _ .vmem, ⟨20, _⟩ => ⟨S128x128, .f32⟩
  | .local _ .vmem, ⟨21, _⟩ => ⟨S1x128, .f32⟩
  | .local _ .vmem, ⟨22, _⟩ => ⟨S400x128, .f32⟩
  | .local _ .vmem, ⟨23, _⟩ => ⟨S400x128, .f32⟩
  | .local _ .vmem, ⟨24, _⟩ => ⟨S400x256, .f32⟩
  | .local _ .vmem, ⟨25, _⟩ => ⟨S400x256, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_v0 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem3_1 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23
abbrev cc1_sem8_0 : DmaSem sig := 24
abbrev cc1_sem8_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S400x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S400x10000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S10000x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S400x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S400x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  bcast_S10000_S10000x1_0 : S10000.BroadcastsInDim S10000x1 (![0] : Fin 1 → Fin S10000x1.rank)
  slices_S128x256_S128x128_0_0 : S128x256.Slices ![0, 0] S128x128
  transposes_S128x128_S128x128_1_0 : S128x128.Transposes [1, 0] S128x128
  slices_S128x256_S128x128_0_128 : S128x256.Slices ![0, 128] S128x128
  bcast_S128_S1x128_1 : S128.BroadcastsInDim S1x128 (![1] : Fin 1 → Fin S1x128.rank)
  inb_S400x10000_S400x10000_0_0 : ∀ a, (![0, 0] : Fin 2 → Nat) a + S400x10000.size a ≤ S400x10000.size a
  h_S400x10000 : 0 < S400x10000.numel
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  inb_S400x1_S400x1_0_0 : ∀ a, (![0, 0] : Fin 2 → Nat) a + S400x1.size a ≤ S400x1.size a
  h_S400x1 : 0 < S400x1.numel
  shapeCasts_S400x1_S400x1 : S400x1.ShapeCasts S400x1
  broadcasts_S400x1_S400x128 : S400x1.Broadcasts S400x128
  inb_S400x128_S400x128_0_0 : ∀ a, (![0, 0] : Fin 2 → Nat) a + S400x128.size a ≤ S400x128.size a
  h_S400x128 : 0 < S400x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  shapeCasts_S10000x128_S10000x128 : S10000x128.ShapeCasts S10000x128
  shapeCasts_S400x128_S400x128 : S400x128.ShapeCasts S400x128
  inb_S400x256_S400x128_0_0 : ∀ a, (![0, 0] : Fin 2 → Nat) a + S400x128.size a ≤ S400x256.size a
  inb_S400x256_S400x128_0_128 : ∀ a, (![0, 128] : Fin 2 → Nat) a + S400x128.size a ≤ S400x256.size a
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x128.size a ≤ S10000x128.size a
  hwx0_0 : ∀ i : grid0.Coords, EltTy.bits .f32 = 32 ∨ (Rect.block (s := S10000x128) S400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x1.size a ≤ S10000x1.size a
  hwx0_3 : ∀ i : grid0.Coords, EltTy.bits .f32 = 32 ∨ (Rect.block (s := S10000x1) S400x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x128.size a ≤ S10000x128.size a
  hwx0_7 : ∀ i : grid0.Coords, EltTy.bits .f32 = 32 ∨ (Rect.block (s := S10000x128) S400x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x128.size a ≤ S10000x128.size a
  hwx1_0 : ∀ i : grid1.Coords, EltTy.bits .f32 = 32 ∨ (Rect.block (s := S10000x128) S400x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S400x10000.size a ≤ S10000x10000.size a
  hwx1_1 : ∀ i : grid1.Coords, EltTy.bits .f32 = 32 ∨ (Rect.block (s := S10000x10000) S400x10000.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S10000x128.size a
  hwx1_2 : ∀ i : grid1.Coords, EltTy.bits .f32 = 32 ∨ (Rect.block (s := S10000x128) S10000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x1.size a ≤ S10000x1.size a
  hwx1_3 : ∀ i : grid1.Coords, EltTy.bits .f32 = 32 ∨ (Rect.block (s := S10000x1) S400x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S400x128.size a ≤ S10000x128.size a
  hwx1_7 : ∀ i : grid1.Coords, EltTy.bits .f32 = 32 ∨ (Rect.block (s := S10000x128) S400x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S400x256.size a ≤ S10000x256.size a
  hwx1_8 : ∀ i : grid1.Coords, EltTy.bits .f32 = 32 ∨ (Rect.block (s := S10000x256) S400x256.size (cc1_transform_8 i) (hinb1_8 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg0) S400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S400x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v2) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v9) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v10) S400x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_call0_v10) S400x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S400x10000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v10) S10000x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v0) S400x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_call0_v6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v8) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v11) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg0) S400x128.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v0) S400x256.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S10000 : Shape := ⟨1, ![10000]⟩
abbrev S128x256 : Shape := ⟨2, ![128, 256]⟩
abbrev S128 : Shape := ⟨1, ![128]⟩
abbrev S10000x1 : Shape := ⟨2, ![10000, 1]⟩
abbrev S_ : Shape := ⟨0, ![]⟩
abbrev S10000x256 : Shape := ⟨2, ![10000, 256]⟩
abbrev S256x128 : Shape := ⟨2, ![256, 128]⟩
abbrev S1x128 : Shape := ⟨2, ![1, 128]⟩

abbrev nBuf : Space → Nat
  | .hbm => 40
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000, .f32⟩
  | .hbm, ⟨3, _⟩ => ⟨S128x256, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S10000x128, .f32⟩
  | .hbm, ⟨8, _⟩ => ⟨S10000x1, .f32⟩
  | .hbm, ⟨9, _⟩ => ⟨S_, .f32⟩
  | .hbm, ⟨10, _⟩ => ⟨S10000x1, .f32⟩
  | .hbm, ⟨11, _⟩ => ⟨S10000x1, .f32⟩
  | .hbm, ⟨12, _⟩ => ⟨S10000x128, .f32⟩
  | .hbm, ⟨13, _⟩ => ⟨S10000x128, .f32⟩
  | .hbm, ⟨14, _⟩ => ⟨S10000x256, .f32⟩
  | .hbm, ⟨15, _⟩ => ⟨S256x128, .f32⟩
  | .hbm, ⟨16, _⟩ => ⟨S10000x128, .f32⟩
  | .hbm, ⟨17, _⟩ => ⟨S1x128, .f32⟩
  | .hbm, ⟨18, _⟩ => ⟨S10000x128, .f32⟩
  | .hbm, ⟨19, _⟩ => ⟨S10000x128, .f32⟩
  | .hbm, ⟨20, _⟩ => ⟨S_, .f32⟩
  | .hbm, ⟨21, _⟩ => ⟨S10000x128, .f32⟩
  | .hbm, ⟨22, _⟩ => ⟨S10000x128, .f32⟩
  | .hbm, ⟨23, _⟩ => ⟨S10000x128, .f32⟩
  | .hbm, ⟨24, _⟩ => ⟨S10000x1, .f32⟩
  | .hbm, ⟨25, _⟩ => ⟨S_, .f32⟩
  | .hbm, ⟨26, _⟩ => ⟨S10000x1, .f32⟩
  | .hbm, ⟨27, _⟩ => ⟨S10000x1, .f32⟩
  | .hbm, ⟨28, _⟩ => ⟨S10000x128, .f32⟩
  | .hbm, ⟨29, _⟩ => ⟨S10000x128, .f32⟩
  | .hbm, ⟨30, _⟩ => ⟨S10000x256, .f32⟩
  | .hbm, ⟨31, _⟩ => ⟨S256x128, .f32⟩
  | .hbm, ⟨32, _⟩ => ⟨S10000x128, .f32⟩
  | .hbm, ⟨33, _⟩ => ⟨S1x128, .f32⟩
  | .hbm, ⟨34, _⟩ => ⟨S10000x128, .f32⟩
  | .hbm, ⟨35, _⟩ => ⟨S10000x128, .f32⟩
  | .hbm, ⟨36, _⟩ => ⟨S_, .f32⟩
  | .hbm, ⟨37, _⟩ => ⟨S10000x128, .f32⟩
  | .hbm, ⟨38, _⟩ => ⟨S10000x128, .f32⟩
  | .hbm, ⟨39, _⟩ => ⟨S10000x256, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_cst : Ref sig .tc := ⟨.hbm, 20, rfl⟩
abbrev main_call0_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call1_cst : Ref sig .tc := ⟨.hbm, 36, rfl⟩
abbrev main_call1_v0 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]

class Facts₀ : Prop where
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  concatenates_S10000x128_S10000x128_S10000x256_d1 : Shape.Concatenates [S10000x128, S10000x128] S10000x256 1
  transposes_S128x256_S256x128_1_0 : S128x256.Transposes [1, 0] S256x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x256_S256x128_S10000x128_1_0_0_1_n_n_wf : DotDims.WF S10000x256 S256x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.KFrameR0.lean ====
/-
  Region 0 — the first layer's kernel — seen from the pipeline that runs it: what each window's staging buffer holds
  when the body runs at a grid point, what the body leaves there, and the body's run on those buffers.

  The grid has 25 points; point `t` works on rows `400 t … 400 t + 399`. Windows 0, 1, 3 (the slab's own features, its
  adjacency rows, its neighbour counts) move with the point; windows 2, 4, 5, 6 (all node features, the two transposed
  weight halves, the bias row) are the same block at every point and are fetched once. Whether or not a window was
  fetched at a point, its buffer holds that point's block of its array, because the body never writes an input buffer.
  Window 7 is the output: the body stores one value over the whole 400 × 128 block, so what it leaves is that value,
  a function of the seven input blocks alone.
-/
import proofs.«122714_g32341103738939_cont_8to1_b_155_6_alg».proof.Proof.Gen.Kernel.Launch
import proofs.«122714_g32341103738939_cont_8to1_b_155_6_alg».proof.Proof.Gen.Kernel.Skeleton
import proofs.«122714_g32341103738939_cont_8to1_b_155_6_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take a whole buffer -/

abbrev rB : Rect S400x128 := Rect.unit (s := S400x128) ![0, 0] S400x128.size inb_S400x128_S400x128_0_0
abbrev rA : Rect S400x10000 := Rect.unit (s := S400x10000) ![0, 0] S400x10000.size inb_S400x10000_S400x10000_0_0
abbrev rH : Rect S10000x128 := Rect.unit (s := S10000x128) ![0, 0] S10000x128.size inb_S10000x128_S10000x128_0_0
abbrev rN : Rect S400x1 := Rect.unit (s := S400x1) ![0, 0] S400x1.size inb_S400x1_S400x1_0_0
abbrev rW : Rect S128x128 := Rect.unit (s := S128x128) ![0, 0] S128x128.size inb_S128x128_S128x128_0_0
abbrev rBias : Rect S1x128 := Rect.unit (s := S1x128) ![0, 0] S1x128.size inb_S1x128_S1x128_0_0

/-- What the body leaves in the output window's buffer, from the seven input blocks: its one store. -/
def out0_7 (x0 : Vec F S400x128 .f32) (x1 : Vec F S400x10000 .f32) (x2 : Vec F S10000x128 .f32) (x3 : Vec F S400x1 .f32)
    (x4 x5 : Vec F S128x128 .f32) (x6 : Vec F S1x128 .f32) : Vec F S400x128 .f32 :=
  View.canon [⟨rB, k0_pay1 (View.ld x1 rA) (View.ld x2 rH) (View.ld x3 rN) (View.ld x0 rB) (View.ld x4 rW) (View.ld x5 rW) (View.ld x6 rBias)⟩]

/-- The one store covers the buffer. -/
theorem cover0_7 (p0 : Vec F S400x128 .f32) (y : S400x128.Idx) :
    ∃ pc ∈ ([⟨rB, p0⟩] : List (View.Piece (Elt F) S400x128 .f32)), y ∈ pc.1.set :=
  View.cover_of_tiled [⟨rB, p0⟩] S400x128.size (by rfl) y

/-! ## The body's run -/

set_option maxHeartbeats 4000000 in
/-- The body on whole staging memrefs, the inputs' reading `x0 … x6` and the output's anything, runs to the
    continuation with the inputs' as they were and the output's at `out0_7` of the inputs. -/
theorem sound_kernel0 (c : Dev nD) (E : Set ℕ) (i : grid0.Coords)
    (arg1 : Memref sig .tc .vmem S400x128 .f32) (harg1 : arg1.IsWhole) (arg2 : Memref sig .tc .vmem S400x10000 .f32) (harg2 : arg2.IsWhole)
    (arg3 : Memref sig .tc .vmem S10000x128 .f32) (harg3 : arg3.IsWhole) (arg4 : Memref sig .tc .vmem S400x1 .f32) (harg4 : arg4.IsWhole)
    (arg5 : Memref sig .tc .vmem S128x128 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S400x128 .f32) (harg8 : arg8.IsWhole)
    (x0 : Vec F S400x128 .f32) (x1 : Vec F S400x10000 .f32) (x2 : Vec F S10000x128 .f32) (x3 : Vec F S400x1 .f32)
    (x4 x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__body_plain i arg1 harg1 arg2 harg2 arg3 harg3 arg4 harg4 arg5 harg5 arg6 harg6 arg7 harg7 arg8 harg8) K := by
  simp only [cc0__body_plain_eq_skeleton]; unfold cc0__body_plain_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  iexists _; isplitr
  swap; · iexact H7
  ipureintro
  exact View.read_writes_eq_canon _ _ _ (cover0_7 _)

/-! ## The pipeline's proof data -/

/-- The proof data of pipeline 0 on core `c`: the arrays as the region finds them; after the body at point `t` each
    input's buffer still at its block and the output's at `out0_7` of the input blocks; nothing owed. Windows 0 and 2
    read ONE array, the node features: each holds half of it (a left and a right half of the full share), every other
    input array is held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q w := match w with
    | ⟨0, _⟩ => PosShare.left fullShare
    | ⟨1, _⟩ => fullShare
    | ⟨2, _⟩ => PosShare.right fullShare
    | ⟨3, _⟩ => fullShare
    | ⟨4, _⟩ => fullShare
    | ⟨5, _⟩ => fullShare
    | ⟨6, _⟩ => fullShare
    | ⟨7, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t
    = out0_7 (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
/-- The body at any point: the inputs' memrefs hold their blocks, so the body's run applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.Kernel.Fr0

end
-- ==== Proof.KFrameR1.lean ====
/-
  Region 1 — the second layer's kernel — seen from the pipeline that runs it. As in region 0 the grid has 25 points,
  point `t` working on rows `400 t … 400 t + 399`; windows 0, 1, 3, 7 (the slab's first-layer features, its adjacency
  rows, its neighbour counts, its INPUT features) move with the point, windows 2, 4, 5, 6 (all first-layer features,
  the two transposed weight halves, the bias row) are one block fetched once. Window 8 is the output, 400 × 256: the
  body stores the layer's value over its columns 0 … 127 and then the slab's input features over its columns
  128 … 255; the two stores tile the block, so what the body leaves is a function of the eight input blocks alone.
-/
import proofs.«122714_g32341103738939_cont_8to1_b_155_6_alg».proof.Proof.Gen.Kernel.Launch
import proofs.«122714_g32341103738939_cont_8to1_b_155_6_alg».proof.Proof.Gen.Kernel.Skeleton
import proofs.«122714_g32341103738939_cont_8to1_b_155_6_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev rB : Rect S400x128 := Rect.unit (s := S400x128) ![0, 0] S400x128.size inb_S400x128_S400x128_0_0
abbrev rA : Rect S400x10000 := Rect.unit (s := S400x10000) ![0, 0] S400x10000.size inb_S400x10000_S400x10000_0_0
abbrev rH : Rect S10000x128 := Rect.unit (s := S10000x128) ![0, 0] S10000x128.size inb_S10000x128_S10000x128_0_0
abbrev rN : Rect S400x1 := Rect.unit (s := S400x1) ![0, 0] S400x1.size inb_S400x1_S400x1_0_0
abbrev rW : Rect S128x128 := Rect.unit (s := S128x128) ![0, 0] S128x128.size inb_S128x128_S128x128_0_0
abbrev rBias : Rect S1x128 := Rect.unit (s := S1x128) ![0, 0] S1x128.size inb_S1x128_S1x128_0_0
/-- Columns 0 … 127 of the output block. -/
abbrev rLo : Rect S400x256 := Rect.unit (s := S400x256) ![0, 0] S400x128.size inb_S400x256_S400x128_0_0
/-- Columns 128 … 255 of the output block. -/
abbrev rHi : Rect S400x256 := Rect.unit (s := S400x256) ![0, 128] S400x128.size inb_S400x256_S400x128_0_128

/-- What the body leaves in the output window's buffer, from the eight input blocks: its two stores, last first. -/
def out1_8 (x0 : Vec F S400x128 .f32) (x1 : Vec F S400x10000 .f32) (x2 : Vec F S10000x128 .f32) (x3 : Vec F S400x1 .f32)
    (x4 x5 : Vec F S128x128 .f32) (x6 : Vec F S1x128 .f32) (x7 : Vec F S400x128 .f32) : Vec F S400x256 .f32 :=
  View.canon [⟨rHi, View.ld x7 rB⟩,
    ⟨rLo, k1_pay1 (View.ld x1 rA) (View.ld x2 rH) (View.ld x3 rN) (View.ld x0 rB) (View.ld x4 rW) (View.ld x5 rW) (View.ld x6 rBias)⟩]

/-- The two stores tile the buffer, so they cover it. -/
theorem cover1_8 (p1 p0 : Vec F S400x128 .f32) (y : S400x256.Idx) :
    ∃ pc ∈ ([⟨rHi, p1⟩, ⟨rLo, p0⟩] : List (View.Piece (Elt F) S400x256 .f32)), y ∈ pc.1.set :=
  View.cover_of_tiled [⟨rHi, p1⟩, ⟨rLo, p0⟩] S400x128.size (by rfl) y

/-! ## The body's run -/

set_option maxHeartbeats 4000000 in
/-- The body on whole staging memrefs, the inputs' reading `x0 … x7` and the output's anything, runs to the
    continuation with the inputs' as they were and the output's at `out1_8` of the inputs. -/
theorem sound_kernel1 (c : Dev nD) (E : Set ℕ) (i : grid1.Coords)
    (arg1 : Memref sig .tc .vmem S400x128 .f32) (harg1 : arg1.IsWhole) (arg2 : Memref sig .tc .vmem S400x10000 .f32) (harg2 : arg2.IsWhole)
    (arg3 : Memref sig .tc .vmem S10000x128 .f32) (harg3 : arg3.IsWhole) (arg4 : Memref sig .tc .vmem S400x1 .f32) (harg4 : arg4.IsWhole)
    (arg5 : Memref sig .tc .vmem S128x128 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S400x128 .f32) (harg8 : arg8.IsWhole)
    (arg9 : Memref sig .tc .vmem S400x256 .f32) (harg9 : arg9.IsWhole)
    (x0 : Vec F S400x128 .f32) (x1 : Vec F S400x10000 .f32) (x2 : Vec F S10000x128 .f32) (x3 : Vec F S400x1 .f32)
    (x4 x5 : Vec F S128x128 .f32) (x6 : Vec F S1x128 .f32) (x7 : Vec F S400x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out1_8 x0 x1 x2 x3 x4 x5 x6 x7)) -∗ K ⟨⟩))
      ⊢ wp frame (wpE (defs₀ (F := F)) Variants.none c none) E (cc1__body_concat i arg1 harg1 arg2 harg2 arg3 harg3 arg4 harg4 arg5 harg5 arg6 harg6 arg7 harg7 arg8 harg8 arg9 harg9) K := by
  simp only [cc1__body_concat_eq_skeleton]; unfold cc1__body_concat_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  iexists _; isplitr
  swap; · iexact H8
  ipureintro
  exact View.read_writes_eq_canon _ _ _ (cover1_8 _ _)

/-! ## The pipeline's proof data -/

/-- The proof data of pipeline 1 on core `c`: the arrays as the region finds them; after the body at point `t` each
    input's buffer still at its block and the output's at `out1_8` of the input blocks; nothing owed. Windows 0 and 2
    read ONE array, the first layer's features: each holds half of it, every other input array is held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q w := match w with
    | ⟨0, _⟩ => PosShare.left fullShare
    | ⟨1, _⟩ => fullShare
    | ⟨2, _⟩ => PosShare.right fullShare
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t
    = out1_8 (iblk1 V c 0 t) (iblk1 V c 1 t) (iblk1 V c 2 t) (iblk1 V c 3 t) (iblk1 V c 4 t) (iblk1 V c 5 t) (iblk1 V c 6 t) (iblk1 V c 7 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

set_option maxHeartbeats 1000000 in
/-- The body at any point: the inputs' memrefs hold their blocks, so the body's run applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.Kernel.Fr1

end
-- ==== Proof.KShared.lean ====
/-
  Two windows of each region read ONE array: in region 0 the node features are read a slab at a time (window 0) and
  whole (window 2); in region 1 the first layer's features likewise. A pipeline holds each window's array at a share,
  so the one buffer behind both windows cannot be handed to each whole. It is handed in two halves of the full share
  — both windows only read it —, and when the region ends the two halves are the whole buffer again. Every other
  window's array is a buffer of its own, held whole. This module states that exchange, at a region's entry and exit,
  between "every unscoped buffer of the core at given contents" and "the pipeline's arrays, and the rest".
-/
import proofs.«122714_g32341103738939_cont_8to1_b_155_6_alg».proof.Proof.Gen.Kernel.Launch
import proofs.«122714_g32341103738939_cont_8to1_b_155_6_alg».proof.Proof.Gen.Kernel.Skeleton
import proofs.«122714_g32341103738939_cont_8to1_b_155_6_alg».proof.Proof.Gen.Kernel.Points
import proofs.«122714_g32341103738939_cont_8to1_b_155_6_alg».proof.Proof.KFrameR0
import proofs.«122714_g32341103738939_cont_8to1_b_155_6_alg».proof.Proof.KFrameR1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Sh

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Fr0 Cert.Kernel.Fr1

/-- The distinct buffers behind region 0's windows. -/
theorem arrImage0 : Finset.univ.image (Pipeline.arrRef spec0)
    = ([main_arg0, main_arg1, main_call0_v0, main_call0_v2, main_call0_v4, main_call0_v9, main_call0_v10] : List (Ref sig .tc)).toFinset := by decide

/-- The pipeline's arrays, window by window, over whole buffers at the proof data's shares. -/
theorem arrays0_eq (c : Dev nD) (V : (c : Dev nD) → (b : Ref sig .tc) → Buf (Elt F) ((c : Thread nD τ).loc b))
    (V' : (b : Ref sig .tc) → Buf (Elt F) ((c : Thread nD τ).loc b))
    (Fc : (w : Fin cfg0.W) → Buf (Elt F) ((cfg0.win w).arr.view.loc (c : Thread nD τ))) (hF : ∀ w, Fc w = V' (Pipeline.arrRef spec0 w)) :
    ((dat0 V c).arrays Fc : sProp 𝕄)
      = bigSep Finset.univ fun w : Fin cfg0.W => (((c : Thread nD τ).loc (Pipeline.arrRef spec0 w)) ↦{(dat0 V c).share w} V' (Pipeline.arrRef spec0 w) : sProp 𝕄) := by
  unfold Dat.arrays
  exact bigSep_congr fun w _ => by rw [(arr_whole0 w).set_eq_univ, hF w]

/-- The distinct buffers behind region 0's windows, each held whole, ARE the pipeline's arrays at the proof data's
    shares: the one buffer that windows 0 and 2 both read is dealt to them in two halves of the full share, every
    other buffer goes whole to its one window. -/
theorem arrays0_iff (c : Dev nD) (V : (c : Dev nD) → (b : Ref sig .tc) → Buf (Elt F) ((c : Thread nD τ).loc b))
    (V' : (b : Ref sig .tc) → Buf (Elt F) ((c : Thread nD τ).loc b))
    (Fc : (w : Fin cfg0.W) → Buf (Elt F) ((cfg0.win w).arr.view.loc (c : Thread nD τ))) (hF : ∀ w, Fc w = V' (Pipeline.arrRef spec0 w)) :
    (Pipeline.arrBufs (Ix := Unit) (Name := ℕ) (U := UR sig nD τ) (Lvl := ℕ) spec0 c V' : sProp 𝕄) ⊣⊢ (dat0 V c).arrays Fc := by
  rw [arrays0_eq c V V' Fc hF]
  unfold Pipeline.arrBufs
  rw [bigSep_W0, bigSep_eq_bigSepL_of_eq _ arrImage0 (by decide)]
  simp only [bigSepL_cons_cons, bigSepL_singleton]
  show (iprop((((c : Thread nD τ).loc main_arg0) ↦{fullShare} V' main_arg0) ∗ (((c : Thread nD τ).loc main_arg1) ↦{fullShare} V' main_arg1) ∗ (((c : Thread nD τ).loc main_call0_v0) ↦{fullShare} V' main_call0_v0) ∗ (((c : Thread nD τ).loc main_call0_v2) ↦{fullShare} V' main_call0_v2) ∗ (((c : Thread nD τ).loc main_call0_v4) ↦{fullShare} V' main_call0_v4) ∗ (((c : Thread nD τ).loc main_call0_v9) ↦{fullShare} V' main_call0_v9) ∗ (((c : Thread nD τ).loc main_call0_v10) ↦{fullShare} V' main_call0_v10)) : sProp 𝕄)
    ⊣⊢ iprop((((c : Thread nD τ).loc main_arg0) ↦{PosShare.left fullShare} V' main_arg0) ∗ (((c : Thread nD τ).loc main_arg1) ↦{fullShare} V' main_arg1) ∗ (((c : Thread nD τ).loc main_arg0) ↦{PosShare.right fullShare} V' main_arg0) ∗ (((c : Thread nD τ).loc main_call0_v0) ↦{fullShare} V' main_call0_v0) ∗ (((c : Thread nD τ).loc main_call0_v2) ↦{fullShare} V' main_call0_v2) ∗ (((c : Thread nD τ).loc main_call0_v4) ↦{fullShare} V' main_call0_v4) ∗ (((c : Thread nD τ).loc main_call0_v9) ↦{fullShare} V' main_call0_v9) ∗ (((c : Thread nD τ).loc main_call0_v10) ↦{fullShare} V' main_call0_v10))
  have hs : ((((c : Thread nD τ).loc main_arg0) ↦{fullShare} V' main_arg0 : sProp 𝕄)
      ⊣⊢ iprop((((c : Thread nD τ).loc main_arg0) ↦{PosShare.left fullShare} V' main_arg0) ∗ (((c : Thread nD τ).loc main_arg0) ↦{PosShare.right fullShare} V' main_arg0))) :=
    pointsTo_share (PosShare.mem_left_op_right fullShare)
  constructor
  · iintro ⟨H0, H1, H3, H4, H5, H6, H7⟩
    ihave H := hs.1 $$ H0
    icases H with ⟨Hl, Hr⟩
    isplitl [Hl]; · iexact Hl
    isplitl [H1]; · iexact H1
    isplitl [Hr]; · iexact Hr
    isplitl [H3]; · iexact H3
    isplitl [H4]; · iexact H4
    isplitl [H5]; · iexact H5
    isplitl [H6]; · iexact H6
    iexact H7
  · iintro ⟨Hl, H1, Hr, H3, H4, H5, H6, H7⟩
    isplitl [Hl Hr]
    · iapply hs.2
      isplitl [Hl]; · iexact Hl
      iexact Hr
    isplitl [H1]; · iexact H1
    isplitl [H3]; · iexact H3
    isplitl [H4]; · iexact H4
    isplitl [H5]; · iexact H5
    isplitl [H6]; · iexact H6
    iexact H7

/-- ENTRY of region 0: the core's unscoped buffers at contents `V'` are the pipeline's arrays at the proof data's
    entry contents (those being read off `V'`) and the unscoped buffers no window reads. -/
theorem entry0 (c : Dev nD) (V : (c : Dev nD) → (b : Ref sig .tc) → Buf (Elt F) ((c : Thread nD τ).loc b))
    (V' : Valuation τ sig (Elt F)) (hA : ∀ w, (dat0 V c).A w = V' (Pipeline.arrRef spec0 w)) :
    (StableHlo.held (c : Thread nD τ) (Pipeline.ucRefs τ sig) V' : sProp 𝕄)
      ⊢ iprop((dat0 V c).arrays ((dat0 V c).arrAt · 0) ∗ Pipeline.unscopedRest spec0 c (fun b => V' b)) := by
  rw [← Pipeline.unscopedBufs_held (Ix := Unit) (Name := ℕ) (U := UR sig nD τ) (Lvl := ℕ) c V',
    Pipeline.unscopedBufs_split₀ cfgs 0 winFacts₀0.arr_unscoped c (fun b => V' b)]
  exact sep_mono (arrays0_iff c V (fun b => V' b) _ fun w => by rw [show (dat0 V c).arrAt w 0 = (dat0 V c).A w from rfl, hA]).1 .rfl

/-- EXIT of region 0: the pipeline's arrays at contents `Fc` and the untouched rest at `V₀` are the core's unscoped
    buffers at any contents `V'` that has the arrays at `Fc` and agrees with `V₀` off them. -/
theorem exit0 (c : Dev nD) (V : (c : Dev nD) → (b : Ref sig .tc) → Buf (Elt F) ((c : Thread nD τ).loc b))
    (V₀ V' : Valuation τ sig (Elt F))
    (Fc : (w : Fin cfg0.W) → Buf (Elt F) ((cfg0.win w).arr.view.loc (c : Thread nD τ))) (hF : ∀ w, Fc w = V' (Pipeline.arrRef spec0 w))
    (hrest : ∀ b : Ref sig .tc, b ∉ Finset.univ.image (Pipeline.arrRef spec0) → V' b = V₀ b) :
    iprop((dat0 V c).arrays Fc ∗ Pipeline.unscopedRest spec0 c (fun b => V₀ b))
      ⊢ (StableHlo.held (c : Thread nD τ) (Pipeline.ucRefs τ sig) V' : sProp 𝕄) := by
  rw [← Pipeline.unscopedBufs_held (Ix := Unit) (Name := ℕ) (U := UR sig nD τ) (Lvl := ℕ) c V',
    Pipeline.unscopedBufs_split₀ cfgs 0 winFacts₀0.arr_unscoped c (fun b => V' b)]
  refine sep_mono (arrays0_iff c V (fun b => V' b) Fc hF).2 (Entails.of_eq ?_)
  unfold Pipeline.unscopedRest
  exact bigSep_congr fun b hb => by dsimp only; rw [hrest b (Finset.mem_sdiff.mp hb).2]

/-- The distinct buffers behind region 1's windows. -/
theorem arrImage1 : Finset.univ.image (Pipeline.arrRef spec1)
    = ([main_call0_v10, main_arg1, main_call0_v0, main_call0_v6, main_call0_v8, main_call0_v11, main_arg0, main_v0] : List (Ref sig .tc)).toFinset := by decide

/-- The pipeline's arrays, window by window, over whole buffers at the proof data's shares. -/
theorem arrays1_eq (c : Dev nD) (V : (c : Dev nD) → (b : Ref sig .tc) → Buf (Elt F) ((c : Thread nD τ).loc b))
    (V' : (b : Ref sig .tc) → Buf (Elt F) ((c : Thread nD τ).loc b))
    (Fc : (w : Fin cfg1.W) → Buf (Elt F) ((cfg1.win w).arr.view.loc (c : Thread nD τ))) (hF : ∀ w, Fc w = V' (Pipeline.arrRef spec1 w)) :
    ((dat1 V c).arrays Fc : sProp 𝕄)
      = bigSep Finset.univ fun w : Fin cfg1.W => (((c : Thread nD τ).loc (Pipeline.arrRef spec1 w)) ↦{(dat1 V c).share w} V' (Pipeline.arrRef spec1 w) : sProp 𝕄) := by
  unfold Dat.arrays
  exact bigSep_congr fun w _ => by rw [(arr_whole1 w).set_eq_univ, hF w]

/-- The distinct buffers behind region 1's windows, each held whole, ARE the pipeline's arrays at the proof data's
    shares: the one buffer that windows 0 and 2 both read is dealt to them in two halves of the full share, every
    other buffer goes whole to its one window. -/
theorem arrays1_iff (c : Dev nD) (V : (c : Dev nD) → (b : Ref sig .tc) → Buf (Elt F) ((c : Thread nD τ).loc b))
    (V' : (b : Ref sig .tc) → Buf (Elt F) ((c : Thread nD τ).loc b))
    (Fc : (w : Fin cfg1.W) → Buf (Elt F) ((cfg1.win w).arr.view.loc (c : Thread nD τ))) (hF : ∀ w, Fc w = V' (Pipeline.arrRef spec1 w)) :
    (Pipeline.arrBufs (Ix := Unit) (Name := ℕ) (U := UR sig nD τ) (Lvl := ℕ) spec1 c V' : sProp 𝕄) ⊣⊢ (dat1 V c).arrays Fc := by
  rw [arrays1_eq c V V' Fc hF]
  unfold Pipeline.arrBufs
  rw [bigSep_W1, bigSep_eq_bigSepL_of_eq _ arrImage1 (by decide)]
  simp only [bigSepL_cons_cons, bigSepL_singleton]
  show (iprop((((c : Thread nD τ).loc main_call0_v10) ↦{fullShare} V' main_call0_v10) ∗ (((c : Thread nD τ).loc main_arg1) ↦{fullShare} V' main_arg1) ∗ (((c : Thread nD τ).loc main_call0_v0) ↦{fullShare} V' main_call0_v0) ∗ (((c : Thread nD τ).loc main_call0_v6) ↦{fullShare} V' main_call0_v6) ∗ (((c : Thread nD τ).loc main_call0_v8) ↦{fullShare} V' main_call0_v8) ∗ (((c : Thread nD τ).loc main_call0_v11) ↦{fullShare} V' main_call0_v11) ∗ (((c : Thread nD τ).loc main_arg0) ↦{fullShare} V' main_arg0) ∗ (((c : Thread nD τ).loc main_v0) ↦{fullShare} V' main_v0)) : sProp 𝕄)
    ⊣⊢ iprop((((c : Thread nD τ).loc main_call0_v10) ↦{PosShare.left fullShare} V' main_call0_v10) ∗ (((c : Thread nD τ).loc main_arg1) ↦{fullShare} V' main_arg1) ∗ (((c : Thread nD τ).loc main_call0_v10) ↦{PosShare.right fullShare} V' main_call0_v10) ∗ (((c : Thread nD τ).loc main_call0_v0) ↦{fullShare} V' main_call0_v0) ∗ (((c : Thread nD τ).loc main_call0_v6) ↦{fullShare} V' main_call0_v6) ∗ (((c : Thread nD τ).loc main_call0_v8) ↦{fullShare} V' main_call0_v8) ∗ (((c : Thread nD τ).loc main_call0_v11) ↦{fullShare} V' main_call0_v11) ∗ (((c : Thread nD τ).loc main_arg0) ↦{fullShare} V' main_arg0) ∗ (((c : Thread nD τ).loc main_v0) ↦{fullShare} V' main_v0))
  have hs : ((((c : Thread nD τ).loc main_call0_v10) ↦{fullShare} V' main_call0_v10 : sProp 𝕄)
      ⊣⊢ iprop((((c : Thread nD τ).loc main_call0_v10) ↦{PosShare.left fullShare} V' main_call0_v10) ∗ (((c : Thread nD τ).loc main_call0_v10) ↦{PosShare.right fullShare} V' main_call0_v10))) :=
    pointsTo_share (PosShare.mem_left_op_right fullShare)
  constructor
  · iintro ⟨H0, H1, H3, H4, H5, H6, H7, H8⟩
    ihave H := hs.1 $$ H0
    icases H with ⟨Hl, Hr⟩
    isplitl [Hl]; · iexact Hl
    isplitl [H1]; · iexact H1
    isplitl [Hr]; · iexact Hr
    isplitl [H3]; · iexact H3
    isplitl [H4]; · iexact H4
    isplitl [H5]; · iexact H5
    isplitl [H6]; · iexact H6
    isplitl [H7]; · iexact H7
    iexact H8
  · iintro ⟨Hl, H1, Hr, H3, H4, H5, H6, H7, H8⟩
    isplitl [Hl Hr]
    · iapply hs.2
      isplitl [Hl]; · iexact Hl
      iexact Hr
    isplitl [H1]; · iexact H1
    isplitl [H3]; · iexact H3
    isplitl [H4]; · iexact H4
    isplitl [H5]; · iexact H5
    isplitl [H6]; · iexact H6
    isplitl [H7]; · iexact H7
    iexact H8

/-- ENTRY of region 1: the core's unscoped buffers at contents `V'` are the pipeline's arrays at the proof data's
    entry contents (those being read off `V'`) and the unscoped buffers no window reads. -/
theorem entry1 (c : Dev nD) (V : (c : Dev nD) → (b : Ref sig .tc) → Buf (Elt F) ((c : Thread nD τ).loc b))
    (V' : Valuation τ sig (Elt F)) (hA : ∀ w, (dat1 V c).A w = V' (Pipeline.arrRef spec1 w)) :
    (StableHlo.held (c : Thread nD τ) (Pipeline.ucRefs τ sig) V' : sProp 𝕄)
      ⊢ iprop((dat1 V c).arrays ((dat1 V c).arrAt · 0) ∗ Pipeline.unscopedRest spec1 c (fun b => V' b)) := by
  rw [← Pipeline.unscopedBufs_held (Ix := Unit) (Name := ℕ) (U := UR sig nD τ) (Lvl := ℕ) c V',
    Pipeline.unscopedBufs_split₀ cfgs 1 winFacts₀1.arr_unscoped c (fun b => V' b)]
  exact sep_mono (arrays1_iff c V (fun b => V' b) _ fun w => by rw [show (dat1 V c).arrAt w 0 = (dat1 V c).A w from rfl, hA]).1 .rfl

/-- EXIT of region 1: the pipeline's arrays at contents `Fc` and the untouched rest at `V₀` are the core's unscoped
    buffers at any contents `V'` that has the arrays at `Fc` and agrees with `V₀` off them. -/
theorem exit1 (c : Dev nD) (V : (c : Dev nD) → (b : Ref sig .tc) → Buf (Elt F) ((c : Thread nD τ).loc b))
    (V₀ V' : Valuation τ sig (Elt F))
    (Fc : (w : Fin cfg1.W) → Buf (Elt F) ((cfg1.win w).arr.view.loc (c : Thread nD τ))) (hF : ∀ w, Fc w = V' (Pipeline.arrRef spec1 w))
    (hrest : ∀ b : Ref sig .tc, b ∉ Finset.univ.image (Pipeline.arrRef spec1) → V' b = V₀ b) :
    iprop((dat1 V c).arrays Fc ∗ Pipeline.unscopedRest spec1 c (fun b => V₀ b))
      ⊢ (StableHlo.held (c : Thread nD τ) (Pipeline.ucRefs τ sig) V' : sProp 𝕄) := by
  rw [← Pipeline.unscopedBufs_held (Ix := Unit) (Name := ℕ) (U := UR sig nD τ) (Lvl := ℕ) c V',
    Pipeline.unscopedBufs_split₀ cfgs 1 winFacts₀1.arr_unscoped c (fun b => V' b)]
  refine sep_mono (arrays1_iff c V (fun b => V' b) Fc hF).2 (Entails.of_eq ?_)
  unfold Pipeline.unscopedRest
  exact bigSep_congr fun b hb => by dsimp only; rw [hrest b (Finset.mem_sdiff.mp hb).2]

end Cert.Kernel.Sh

end
-- ==== Proof.KFrameRun.lean ====
/-
  The whole program as four items — the host operations before the first kernel, the first kernel's region, the one
  host operation between the kernels, the second kernel's region — each entered from what the one before it left in
  the core's unscoped buffers. Region 0 changes one buffer, the first layer's features, which end at what its 25
  write-backs leave; region 1 changes one buffer, the result. No item writes an argument, so the arguments end as
  launched; and the result buffer ends at what region 1's write-backs leave, which the value modules read.
-/
import proofs.«122714_g32341103738939_cont_8to1_b_155_6_alg».proof.Proof.Gen.Kernel.Launch
import proofs.«122714_g32341103738939_cont_8to1_b_155_6_alg».proof.Proof.Gen.Kernel.Skeleton
import proofs.«122714_g32341103738939_cont_8to1_b_155_6_alg».proof.Proof.Gen.Kernel.Points
import proofs.«122714_g32341103738939_cont_8to1_b_155_6_alg».proof.Proof.Gen.Kernel.Regions
import proofs.«122714_g32341103738939_cont_8to1_b_155_6_alg».proof.Proof.KFrameR0
import proofs.«122714_g32341103738939_cont_8to1_b_155_6_alg».proof.Proof.KFrameR1
import proofs.«122714_g32341103738939_cont_8to1_b_155_6_alg».proof.Proof.KShared
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Fr0 Cert.Kernel.Fr1

variable (m : (ℓ : Loc nD τ sig) → Buf (Elt F) ℓ) (ρ : Dev nD → PrngReg)

/-! ## The buffers' contents between the items -/

/-- Region 0's entry contents, read at the TensorCore's references. -/
abbrev V1r : (c : Dev nD) → (b : Ref sig .tc) → Buf (Elt F) ((c : Thread nD τ).loc b) := fun c b => Gen.V1 m c b
/-- What region 0 leaves in the first layer's features: its write-backs folded over the entry contents. -/
def o2 (c : Dev nD) : Buf (Elt F) ((c : Thread nD τ).loc main_call0_v10) := (dat0 (V1r m) c).arrAt 7 cfg0.N
/-- After region 0: the entry contents with that one buffer replaced. -/
def W2 (c : Dev nD) : Valuation τ sig (Elt F) := Function.update (Gen.V1 m c) main_call0_v10 (o2 m c)
/-- After the host operation between the kernels: region 1's entry contents. -/
def W3 (c : Dev nD) : Valuation τ sig (Elt F) := StableHlo.after hostOps1 (W2 m c)
abbrev V3r : (c : Dev nD) → (b : Ref sig .tc) → Buf (Elt F) ((c : Thread nD τ).loc b) := fun c b => W3 m c b
/-- What region 1 leaves in the result buffer. -/
def o4 (c : Dev nD) : Buf (Elt F) ((c : Thread nD τ).loc main_v0) := (dat1 (V3r m) c).arrAt 8 cfg1.N
/-- After region 1. -/
def W4 (c : Dev nD) : Valuation τ sig (Elt F) := Function.update (W3 m c) main_v0 (o4 m c)

/-- What the two regions leave, as the family the generated host side is written over: the first layer's features
    after region 0, the result after region 1 (any other reference: unread). -/
def outs : Gen.Outs (F := F) := fun _ r c =>
  if h : r = main_call0_v10 then h ▸ o2 m c else if h' : r = main_v0 then h' ▸ o4 m c else Gen.V1 m c r

theorem outs_v10 (c : Dev nD) : outs m 2 main_call0_v10 c = o2 m c := by
  unfold outs; rw [dif_pos rfl]
theorem outs_v0 (c : Dev nD) : outs m 4 main_v0 c = o4 m c := by
  unfold outs; rw [dif_neg (by decide), dif_pos rfl]

theorem V2_eq (c : Dev nD) : Gen.V2 m (outs m) c = W2 m c := by
  unfold W2; rw [← outs_v10]
theorem V3_eq (c : Dev nD) : Gen.V3 m (outs m) c = W3 m c := by
  unfold W3; rw [← V2_eq]
theorem V4_eq (c : Dev nD) : Gen.V4 m (outs m) c = W4 m c := by
  unfold W4; rw [← outs_v0, ← V3_eq]

/-! ### At a region's exit its arrays hold what the pipeline leaves, every other buffer what it held at entry -/

theorem W2_v10 (c : Dev nD) : W2 m c main_call0_v10 = o2 m c := by unfold W2; exact Function.update_self ..
theorem W2_of_ne (c : Dev nD) (b : Ref sig .tc) (h : b ≠ main_call0_v10) : W2 m c b = Gen.V1 m c b := by
  unfold W2; exact Function.update_of_ne (StableHlo.devRef_ne_of_ne h) ..
theorem W4_v0 (c : Dev nD) : W4 m c main_v0 = o4 m c := by unfold W4; exact Function.update_self ..
theorem W4_of_ne (c : Dev nD) (b : Ref sig .tc) (h : b ≠ main_v0) : W4 m c b = W3 m c b := by
  unfold W4; exact Function.update_of_ne (StableHlo.devRef_ne_of_ne h) ..

theorem hF0 (c : Dev nD) : ∀ w : Fin cfg0.W, (dat0 (V1r m) c).arrAt w cfg0.N = W2 m c (Pipeline.arrRef spec0 w)
  | ⟨0, _⟩ => ((dat0 (V1r m) c).arrAt_in 0 rfl _).trans ((A_eq0 (V1r m) c 0).trans (W2_of_ne m c _ (by decide)).symm)
  | ⟨1, _⟩ => ((dat0 (V1r m) c).arrAt_in 1 rfl _).trans ((A_eq0 (V1r m) c 1).trans (W2_of_ne m c _ (by decide)).symm)
  | ⟨2, _⟩ => ((dat0 (V1r m) c).arrAt_in 2 rfl _).trans ((A_eq0 (V1r m) c 2).trans (W2_of_ne m c _ (by decide)).symm)
  | ⟨3, _⟩ => ((dat0 (V1r m) c).arrAt_in 3 rfl _).trans ((A_eq0 (V1r m) c 3).trans (W2_of_ne m c _ (by decide)).symm)
  | ⟨4, _⟩ => ((dat0 (V1r m) c).arrAt_in 4 rfl _).trans ((A_eq0 (V1r m) c 4).trans (W2_of_ne m c _ (by decide)).symm)
  | ⟨5, _⟩ => ((dat0 (V1r m) c).arrAt_in 5 rfl _).trans ((A_eq0 (V1r m) c 5).trans (W2_of_ne m c _ (by decide)).symm)
  | ⟨6, _⟩ => ((dat0 (V1r m) c).arrAt_in 6 rfl _).trans ((A_eq0 (V1r m) c 6).trans (W2_of_ne m c _ (by decide)).symm)
  | ⟨7, _⟩ => (W2_v10 m c).symm
theorem hrest0 (c : Dev nD) : ∀ b : Ref sig .tc, b ∉ Finset.univ.image (Pipeline.arrRef spec0) → W2 m c b = Gen.V1 m c b :=
  fun b hb => W2_of_ne m c b fun e => hb (Finset.mem_image.mpr ⟨7, Finset.mem_univ _, e.symm⟩)

theorem hF1 (c : Dev nD) : ∀ w : Fin cfg1.W, (dat1 (V3r m) c).arrAt w cfg1.N = W4 m c (Pipeline.arrRef spec1 w)
  | ⟨0, _⟩ => ((dat1 (V3r m) c).arrAt_in 0 rfl _).trans ((A_eq1 (V3r m) c 0).trans (W4_of_ne m c _ (by decide)).symm)
  | ⟨1, _⟩ => ((dat1 (V3r m) c).arrAt_in 1 rfl _).trans ((A_eq1 (V3r m) c 1).trans (W4_of_ne m c _ (by decide)).symm)
  | ⟨2, _⟩ => ((dat1 (V3r m) c).arrAt_in 2 rfl _).trans ((A_eq1 (V3r m) c 2).trans (W4_of_ne m c _ (by decide)).symm)
  | ⟨3, _⟩ => ((dat1 (V3r m) c).arrAt_in 3 rfl _).trans ((A_eq1 (V3r m) c 3).trans (W4_of_ne m c _ (by decide)).symm)
  | ⟨4, _⟩ => ((dat1 (V3r m) c).arrAt_in 4 rfl _).trans ((A_eq1 (V3r m) c 4).trans (W4_of_ne m c _ (by decide)).symm)
  | ⟨5, _⟩ => ((dat1 (V3r m) c).arrAt_in 5 rfl _).trans ((A_eq1 (V3r m) c 5).trans (W4_of_ne m c _ (by decide)).symm)
  | ⟨6, _⟩ => ((dat1 (V3r m) c).arrAt_in 6 rfl _).trans ((A_eq1 (V3r m) c 6).trans (W4_of_ne m c _ (by decide)).symm)
  | ⟨7, _⟩ => ((dat1 (V3r m) c).arrAt_in 7 rfl _).trans ((A_eq1 (V3r m) c 7).trans (W4_of_ne m c _ (by decide)).symm)
  | ⟨8, _⟩ => (W4_v0 m c).symm
theorem hrest1 (c : Dev nD) : ∀ b : Ref sig .tc, b ∉ Finset.univ.image (Pipeline.arrRef spec1) → W4 m c b = W3 m c b :=
  fun b hb => W4_of_ne m c b fun e => hb (Finset.mem_image.mpr ⟨8, Finset.mem_univ _, e.symm⟩)

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (V1r m) c
  | ⟨1, _⟩ => fun c => dat1 (V3r m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)

-- the library's region lemmas are stated over the pinned configuration; unification has to unfold plain definitions
-- in a metavariable's type to see the printed one
set_option backward.isDefEq.respectTransparency.types false in
/-- REGION 0 as a segment: entered from every unscoped buffer at the contents before it, left at the contents after
    it. Its arrays are split out of the unscoped buffers at entry and put back at exit (the shared buffer in two
    halves); the generator register goes into the invariant and comes out; nothing is owed; the kernel has no
    semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V1r m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1r m c)
  hentry c := by
    rw [Pipeline.ownSems0_none]
    have hsplit := Sh.entry0 c (V1r m) (Gen.V1 m c) (fun w => A_eq0 (V1r m) c w)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Sh.exit0 c (V1r m) (Gen.V1 m c) (W2 m c) ((pdats m 0 c).arrAt · cfg0.N) (hF0 m c) (hrest0 m c)
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

-- the library's region lemmas are stated over the pinned configuration; unification has to unfold plain definitions
-- in a metavariable's type to see the printed one
set_option backward.isDefEq.respectTransparency.types false in
/-- REGION 1 as a segment: entered from every unscoped buffer at the contents before it, left at the contents after
    it. Its arrays are split out of the unscoped buffers at entry and put back at exit (the shared buffer in two
    halves); the generator register goes into the invariant and comes out; nothing is owed; the kernel has no
    semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3r m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3r m c)
  hentry c := by
    rw [Pipeline.ownSems0_none]
    have hsplit := Sh.entry1 c (V3r m) (W3 m c) (fun w => A_eq1 (V3r m) c w)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Sh.exit1 c (V3r m) (W3 m c) (W4 m c) ((pdats m 1 c).arrAt · cfg1.N) (hF1 m c) (hrest1 m c)
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The run -/

theorem hpre0 (c : Dev nD) : iprop(StableHlo.held (c : Thread nD τ) (Pipeline.ucRefs τ sig) (Gen.V1 m c) ∗ R c) ⊢ (reg0 m).pre c := .rfl
theorem hpost0 (c : Dev nD) : (reg0 m).post c ⊢ iprop(StableHlo.held (c : Thread nD τ) (Pipeline.ucRefs τ sig) (Gen.V2 m (outs m) c) ∗ R c) := by
  rw [V2_eq]; exact .rfl
theorem hpre1 (c : Dev nD) : iprop(StableHlo.held (c : Thread nD τ) (Pipeline.ucRefs τ sig) (Gen.V3 m (outs m) c) ∗ R c) ⊢ (reg1 m).pre c := by
  rw [V3_eq]; exact .rfl
theorem hpost1 (c : Dev nD) : (reg1 m).post c ⊢ iprop(StableHlo.held (c : Thread nD τ) (Pipeline.ucRefs τ sig) (Gen.V4 m (outs m) c) ∗ R c) := by
  rw [V4_eq]; exact .rfl

/-- The result buffer after the last item is what region 1's write-backs leave. -/
theorem V4_main_v0 (c : Dev nD) : Gen.V4 m (outs m) c main_v0 = o4 m c := by
  rw [V4_eq]; exact W4_v0 m c

-- the kit theorem's implicit arguments are found by unifying its conclusion with this one, which takes unfolding
-- plain definitions in a metavariable's type
set_option backward.isDefEq.respectTransparency.types false in
/-- THE RUN, at any float instance: from any memory with zero counters every weakly fair execution of @main on the
    TensorCores terminates, nothing faulting, with the result buffer at what region 1's write-backs leave and every
    argument as launched. -/
theorem run : θ_run defs (onTc (τ := τ) (main (F := F))) ⟨m, fun _ => 0, ρ⟩ (fun r => ∀ c : Dev nD,
      r.2.mem ((c.tc : Thread nD τ).loc main_v0) = o4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) Gen.adm (pdats m) () cellOf_inj emb₁ defs₀ 𝒱₀ L lv m ρ main
    (Gen.segs m (outs m) 𝒱₀ L lv (fun _ c => R c) () (pdats m) (reg0 m) (reg1 m))
    (fun c Q => by
      rewrite [main_chain c, Pipeline.Seg.run_eq_chain,
        show (Gen.segs m (outs m) 𝒱₀ L lv (fun _ c => R c) () (pdats m) (reg0 m) (reg1 m) c).map Pipeline.Seg.prog = [
          StableHlo.seq hostOps0,
          Prog.lift (.customCall (Pipeline.entry 0) ()),
          StableHlo.seq hostOps1,
          Prog.lift (.customCall (Pipeline.entry 1) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (Gen.V4 m (outs m) c) ∗ ∃ r, prngReg c r))
    (hch := fun c => ⟨.rfl, hpre0 m c, hpost0 m c, hpre1 m c, (hpost1 m c).trans (by
      iintro ⟨Hh, Hp, HO⟩
      isplitl [Hh Hp]
      · isplitl [Hh]; · iexact Hh
        iexact Hp
      iexact HO)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V4 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V4 m (outs m) c) s')
      isplitl [Hh] <;> iassumption)
    (hQ := fun s h c =>
      ⟨(h c _ (Finset.mem_filter.mpr ⟨StableHlo.devRef_mem_tcRefs main_v0, by decide⟩)).trans (V4_main_v0 m c),
       (h c _ (Finset.mem_filter.mpr ⟨StableHlo.devRef_mem_tcRefs main_arg0, by decide⟩)).trans (Gen.V4_main_arg0 m (outs m) c),
       (h c _ (Finset.mem_filter.mpr ⟨StableHlo.devRef_mem_tcRefs main_arg1, by decide⟩)).trans (Gen.V4_main_arg1 m (outs m) c),
       (h c _ (Finset.mem_filter.mpr ⟨StableHlo.devRef_mem_tcRefs main_arg2, by decide⟩)).trans (Gen.V4_main_arg2 m (outs m) c),
       (h c _ (Finset.mem_filter.mpr ⟨StableHlo.devRef_mem_tcRefs main_arg3, by decide⟩)).trans (Gen.V4_main_arg3 m (outs m) c),
       (h c _ (Finset.mem_filter.mpr ⟨StableHlo.devRef_mem_tcRefs main_arg4, by decide⟩)).trans (Gen.V4_main_arg4 m (outs m) c),
       (h c _ (Finset.mem_filter.mpr ⟨StableHlo.devRef_mem_tcRefs main_arg5, by decide⟩)).trans (Gen.V4_main_arg5 m (outs m) c),
       (h c _ (Finset.mem_filter.mpr ⟨StableHlo.devRef_mem_tcRefs main_arg6, by decide⟩)).trans (Gen.V4_main_arg6 m (outs m) c)⟩)

/-- THE FRAME, at any float instance: the run, the result forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run m ρ)

end Cert.Kernel.Run

end
-- ==== Proof.FrameR0.lean ====
/-
  Region 0 — the first layer's kernel — seen from the pipeline that runs it: what each window's staging buffer holds
  when the body runs at a grid point, what the body leaves there, and the body's run on those buffers.

  The grid has 25 points; point `t` works on rows `400 t … 400 t + 399`. Windows 0, 1, 3 (the slab's own features, its
  adjacency rows, its neighbour counts) move with the point; windows 2, 4, 5, 6 (all node features, the two transposed
  weight halves, the bias row) are the same block at every point and are fetched once. Whether or not a window was
  fetched at a point, its buffer holds that point's block of its array, because the body never writes an input buffer.
  Window 7 is the output: the body stores one value over the whole 400 × 128 block, so what it leaves is that value,
  a function of the seven input blocks alone.
-/
import proofs.«122714_g32341103738939_cont_8to1_b_155_6_alg».proof.Proof.Gen.KernelIdeal.Launch
import proofs.«122714_g32341103738939_cont_8to1_b_155_6_alg».proof.Proof.Gen.KernelIdeal.Skeleton
import proofs.«122714_g32341103738939_cont_8to1_b_155_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take a whole buffer -/

abbrev rB : Rect S400x128 := Rect.unit (s := S400x128) ![0, 0] S400x128.size inb_S400x128_S400x128_0_0
abbrev rA : Rect S400x10000 := Rect.unit (s := S400x10000) ![0, 0] S400x10000.size inb_S400x10000_S400x10000_0_0
abbrev rH : Rect S10000x128 := Rect.unit (s := S10000x128) ![0, 0] S10000x128.size inb_S10000x128_S10000x128_0_0
abbrev rN : Rect S400x1 := Rect.unit (s := S400x1) ![0, 0] S400x1.size inb_S400x1_S400x1_0_0
abbrev rW : Rect S128x128 := Rect.unit (s := S128x128) ![0, 0] S128x128.size inb_S128x128_S128x128_0_0
abbrev rBias : Rect S1x128 := Rect.unit (s := S1x128) ![0, 0] S1x128.size inb_S1x128_S1x128_0_0

/-- What the body leaves in the output window's buffer, from the seven input blocks: its one store. -/
def out0_7 (x0 : Vec F S400x128 .f32) (x1 : Vec F S400x10000 .f32) (x2 : Vec F S10000x128 .f32) (x3 : Vec F S400x1 .f32)
    (x4 x5 : Vec F S128x128 .f32) (x6 : Vec F S1x128 .f32) : Vec F S400x128 .f32 :=
  View.canon [⟨rB, k0_pay1 (View.ld x1 rA) (View.ld x2 rH) (View.ld x3 rN) (View.ld x0 rB) (View.ld x4 rW) (View.ld x5 rW) (View.ld x6 rBias)⟩]

/-- The one store covers the buffer. -/
theorem cover0_7 (p0 : Vec F S400x128 .f32) (y : S400x128.Idx) :
    ∃ pc ∈ ([⟨rB, p0⟩] : List (View.Piece (Elt F) S400x128 .f32)), y ∈ pc.1.set :=
  View.cover_of_tiled [⟨rB, p0⟩] S400x128.size (by rfl) y

/-! ## The body's run -/

set_option maxHeartbeats 4000000 in
/-- The body on whole staging memrefs, the inputs' reading `x0 … x6` and the output's anything, runs to the
    continuation with the inputs' as they were and the output's at `out0_7` of the inputs. -/
theorem sound_kernel0 (c : Dev nD) (E : Set ℕ) (i : grid0.Coords)
    (arg1 : Memref sig .tc .vmem S400x128 .f32) (harg1 : arg1.IsWhole) (arg2 : Memref sig .tc .vmem S400x10000 .f32) (harg2 : arg2.IsWhole)
    (arg3 : Memref sig .tc .vmem S10000x128 .f32) (harg3 : arg3.IsWhole) (arg4 : Memref sig .tc .vmem S400x1 .f32) (harg4 : arg4.IsWhole)
    (arg5 : Memref sig .tc .vmem S128x128 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S400x128 .f32) (harg8 : arg8.IsWhole)
    (x0 : Vec F S400x128 .f32) (x1 : Vec F S400x10000 .f32) (x2 : Vec F S10000x128 .f32) (x3 : Vec F S400x1 .f32)
    (x4 x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__body_plain i arg1 harg1 arg2 harg2 arg3 harg3 arg4 harg4 arg5 harg5 arg6 harg6 arg7 harg7 arg8 harg8) K := by
  simp only [cc0__body_plain_eq_skeleton]; unfold cc0__body_plain_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  iexists _; isplitr
  swap; · iexact H7
  ipureintro
  exact View.read_writes_eq_canon _ _ _ (cover0_7 _)

/-! ## The pipeline's proof data -/

/-- The proof data of pipeline 0 on core `c`: the arrays as the region finds them; after the body at point `t` each
    input's buffer still at its block and the output's at `out0_7` of the input blocks; nothing owed. Windows 0 and 2
    read ONE array, the node features: each holds half of it (a left and a right half of the full share), every other
    input array is held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q w := match w with
    | ⟨0, _⟩ => PosShare.left fullShare
    | ⟨1, _⟩ => fullShare
    | ⟨2, _⟩ => PosShare.right fullShare
    | ⟨3, _⟩ => fullShare
    | ⟨4, _⟩ => fullShare
    | ⟨5, _⟩ => fullShare
    | ⟨6, _⟩ => fullShare
    | ⟨7, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t
    = out0_7 (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
/-- The body at any point: the inputs' memrefs hold their blocks, so the body's run applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.KernelIdeal.Fr0

end
-- ==== Proof.FrameR1.lean ====
/-
  Region 1 — the second layer's kernel — seen from the pipeline that runs it. As in region 0 the grid has 25 points,
  point `t` working on rows `400 t … 400 t + 399`; windows 0, 1, 3, 7 (the slab's first-layer features, its adjacency
  rows, its neighbour counts, its INPUT features) move with the point, windows 2, 4, 5, 6 (all first-layer features,
  the two transposed weight halves, the bias row) are one block fetched once. Window 8 is the output, 400 × 256: the
  body stores the layer's value over its columns 0 … 127 and then the slab's input features over its columns
  128 … 255; the two stores tile the block, so what the body leaves is a function of the eight input blocks alone.
-/
import proofs.«122714_g32341103738939_cont_8to1_b_155_6_alg».proof.Proof.Gen.KernelIdeal.Launch
import proofs.«122714_g32341103738939_cont_8to1_b_155_6_alg».proof.Proof.Gen.KernelIdeal.Skeleton
import proofs.«122714_g32341103738939_cont_8to1_b_155_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev rB : Rect S400x128 := Rect.unit (s := S400x128) ![0, 0] S400x128.size inb_S400x128_S400x128_0_0
abbrev rA : Rect S400x10000 := Rect.unit (s := S400x10000) ![0, 0] S400x10000.size inb_S400x10000_S400x10000_0_0
abbrev rH : Rect S10000x128 := Rect.unit (s := S10000x128) ![0, 0] S10000x128.size inb_S10000x128_S10000x128_0_0
abbrev rN : Rect S400x1 := Rect.unit (s := S400x1) ![0, 0] S400x1.size inb_S400x1_S400x1_0_0
abbrev rW : Rect S128x128 := Rect.unit (s := S128x128) ![0, 0] S128x128.size inb_S128x128_S128x128_0_0
abbrev rBias : Rect S1x128 := Rect.unit (s := S1x128) ![0, 0] S1x128.size inb_S1x128_S1x128_0_0
/-- Columns 0 … 127 of the output block. -/
abbrev rLo : Rect S400x256 := Rect.unit (s := S400x256) ![0, 0] S400x128.size inb_S400x256_S400x128_0_0
/-- Columns 128 … 255 of the output block. -/
abbrev rHi : Rect S400x256 := Rect.unit (s := S400x256) ![0, 128] S400x128.size inb_S400x256_S400x128_0_128

/-- What the body leaves in the output window's buffer, from the eight input blocks: its two stores, last first. -/
def out1_8 (x0 : Vec F S400x128 .f32) (x1 : Vec F S400x10000 .f32) (x2 : Vec F S10000x128 .f32) (x3 : Vec F S400x1 .f32)
    (x4 x5 : Vec F S128x128 .f32) (x6 : Vec F S1x128 .f32) (x7 : Vec F S400x128 .f32) : Vec F S400x256 .f32 :=
  View.canon [⟨rHi, View.ld x7 rB⟩,
    ⟨rLo, k1_pay1 (View.ld x1 rA) (View.ld x2 rH) (View.ld x3 rN) (View.ld x0 rB) (View.ld x4 rW) (View.ld x5 rW) (View.ld x6 rBias)⟩]

/-- The two stores tile the buffer, so they cover it. -/
theorem cover1_8 (p1 p0 : Vec F S400x128 .f32) (y : S400x256.Idx) :
    ∃ pc ∈ ([⟨rHi, p1⟩, ⟨rLo, p0⟩] : List (View.Piece (Elt F) S400x256 .f32)), y ∈ pc.1.set :=
  View.cover_of_tiled [⟨rHi, p1⟩, ⟨rLo, p0⟩] S400x128.size (by rfl) y

/-! ## The body's run -/

set_option maxHeartbeats 4000000 in
/-- The body on whole staging memrefs, the inputs' reading `x0 … x7` and the output's anything, runs to the
    continuation with the inputs' as they were and the output's at `out1_8` of the inputs. -/
theorem sound_kernel1 (c : Dev nD) (E : Set ℕ) (i : grid1.Coords)
    (arg1 : Memref sig .tc .vmem S400x128 .f32) (harg1 : arg1.IsWhole) (arg2 : Memref sig .tc .vmem S400x10000 .f32) (harg2 : arg2.IsWhole)
    (arg3 : Memref sig .tc .vmem S10000x128 .f32) (harg3 : arg3.IsWhole) (arg4 : Memref sig .tc .vmem S400x1 .f32) (harg4 : arg4.IsWhole)
    (arg5 : Memref sig .tc .vmem S128x128 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S400x128 .f32) (harg8 : arg8.IsWhole)
    (arg9 : Memref sig .tc .vmem S400x256 .f32) (harg9 : arg9.IsWhole)
    (x0 : Vec F S400x128 .f32) (x1 : Vec F S400x10000 .f32) (x2 : Vec F S10000x128 .f32) (x3 : Vec F S400x1 .f32)
    (x4 x5 : Vec F S128x128 .f32) (x6 : Vec F S1x128 .f32) (x7 : Vec F S400x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out1_8 x0 x1 x2 x3 x4 x5 x6 x7)) -∗ K ⟨⟩))
      ⊢ wp frame (wpE (defs₀ (F := F)) Variants.none c none) E (cc1__body_concat i arg1 harg1 arg2 harg2 arg3 harg3 arg4 harg4 arg5 harg5 arg6 harg6 arg7 harg7 arg8 harg8 arg9 harg9) K := by
  simp only [cc1__body_concat_eq_skeleton]; unfold cc1__body_concat_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  iexists _; isplitr
  swap; · iexact H8
  ipureintro
  exact View.read_writes_eq_canon _ _ _ (cover1_8 _ _)

/-! ## The pipeline's proof data -/

/-- The proof data of pipeline 1 on core `c`: the arrays as the region finds them; after the body at point `t` each
    input's buffer still at its block and the output's at `out1_8` of the input blocks; nothing owed. Windows 0 and 2
    read ONE array, the first layer's features: each holds half of it, every other input array is held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q w := match w with
    | ⟨0, _⟩ => PosShare.left fullShare
    | ⟨1, _⟩ => fullShare
    | ⟨2, _⟩ => PosShare.right fullShare
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t
    = out1_8 (iblk1 V c 0 t) (iblk1 V c 1 t) (iblk1 V c 2 t) (iblk1 V c 3 t) (iblk1 V c 4 t) (iblk1 V c 5 t) (iblk1 V c 6 t) (iblk1 V c 7 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

set_option maxHeartbeats 1000000 in
/-- The body at any point: the inputs' memrefs hold their blocks, so the body's run applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.KernelIdeal.Fr1

end
-- ==== Proof.Shared.lean ====
/-
  Two windows of each region read ONE array: in region 0 the node features are read a slab at a time (window 0) and
  whole (window 2); in region 1 the first layer's features likewise. A pipeline holds each window's array at a share,
  so the one buffer behind both windows cannot be handed to each whole. It is handed in two halves of the full share
  — both windows only read it —, and when the region ends the two halves are the whole buffer again. Every other
  window's array is a buffer of its own, held whole. This module states that exchange, at a region's entry and exit,
  between "every unscoped buffer of the core at given contents" and "the pipeline's arrays, and the rest".
-/
import proofs.«122714_g32341103738939_cont_8to1_b_155_6_alg».proof.Proof.Gen.KernelIdeal.Launch
import proofs.«122714_g32341103738939_cont_8to1_b_155_6_alg».proof.Proof.Gen.KernelIdeal.Skeleton
import proofs.«122714_g32341103738939_cont_8to1_b_155_6_alg».proof.Proof.Gen.KernelIdeal.Points
import proofs.«122714_g32341103738939_cont_8to1_b_155_6_alg».proof.Proof.FrameR0
import proofs.«122714_g32341103738939_cont_8to1_b_155_6_alg».proof.Proof.FrameR1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Sh

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Fr0 Cert.KernelIdeal.Fr1

/-- The distinct buffers behind region 0's windows. -/
theorem arrImage0 : Finset.univ.image (Pipeline.arrRef spec0)
    = ([main_arg0, main_arg1, main_call0_v0, main_call0_v2, main_call0_v4, main_call0_v9, main_call0_v10] : List (Ref sig .tc)).toFinset := by decide

/-- The pipeline's arrays, window by window, over whole buffers at the proof data's shares. -/
theorem arrays0_eq (c : Dev nD) (V : (c : Dev nD) → (b : Ref sig .tc) → Buf (Elt F) ((c : Thread nD τ).loc b))
    (V' : (b : Ref sig .tc) → Buf (Elt F) ((c : Thread nD τ).loc b))
    (Fc : (w : Fin cfg0.W) → Buf (Elt F) ((cfg0.win w).arr.view.loc (c : Thread nD τ))) (hF : ∀ w, Fc w = V' (Pipeline.arrRef spec0 w)) :
    ((dat0 V c).arrays Fc : sProp 𝕄)
      = bigSep Finset.univ fun w : Fin cfg0.W => (((c : Thread nD τ).loc (Pipeline.arrRef spec0 w)) ↦{(dat0 V c).share w} V' (Pipeline.arrRef spec0 w) : sProp 𝕄) := by
  unfold Dat.arrays
  exact bigSep_congr fun w _ => by rw [(arr_whole0 w).set_eq_univ, hF w]

/-- The distinct buffers behind region 0's windows, each held whole, ARE the pipeline's arrays at the proof data's
    shares: the one buffer that windows 0 and 2 both read is dealt to them in two halves of the full share, every
    other buffer goes whole to its one window. -/
theorem arrays0_iff (c : Dev nD) (V : (c : Dev nD) → (b : Ref sig .tc) → Buf (Elt F) ((c : Thread nD τ).loc b))
    (V' : (b : Ref sig .tc) → Buf (Elt F) ((c : Thread nD τ).loc b))
    (Fc : (w : Fin cfg0.W) → Buf (Elt F) ((cfg0.win w).arr.view.loc (c : Thread nD τ))) (hF : ∀ w, Fc w = V' (Pipeline.arrRef spec0 w)) :
    (Pipeline.arrBufs (Ix := Unit) (Name := ℕ) (U := UR sig nD τ) (Lvl := ℕ) spec0 c V' : sProp 𝕄) ⊣⊢ (dat0 V c).arrays Fc := by
  rw [arrays0_eq c V V' Fc hF]
  unfold Pipeline.arrBufs
  rw [bigSep_W0, bigSep_eq_bigSepL_of_eq _ arrImage0 (by decide)]
  simp only [bigSepL_cons_cons, bigSepL_singleton]
  show (iprop((((c : Thread nD τ).loc main_arg0) ↦{fullShare} V' main_arg0) ∗ (((c : Thread nD τ).loc main_arg1) ↦{fullShare} V' main_arg1) ∗ (((c : Thread nD τ).loc main_call0_v0) ↦{fullShare} V' main_call0_v0) ∗ (((c : Thread nD τ).loc main_call0_v2) ↦{fullShare} V' main_call0_v2) ∗ (((c : Thread nD τ).loc main_call0_v4) ↦{fullShare} V' main_call0_v4) ∗ (((c : Thread nD τ).loc main_call0_v9) ↦{fullShare} V' main_call0_v9) ∗ (((c : Thread nD τ).loc main_call0_v10) ↦{fullShare} V' main_call0_v10)) : sProp 𝕄)
    ⊣⊢ iprop((((c : Thread nD τ).loc main_arg0) ↦{PosShare.left fullShare} V' main_arg0) ∗ (((c : Thread nD τ).loc main_arg1) ↦{fullShare} V' main_arg1) ∗ (((c : Thread nD τ).loc main_arg0) ↦{PosShare.right fullShare} V' main_arg0) ∗ (((c : Thread nD τ).loc main_call0_v0) ↦{fullShare} V' main_call0_v0) ∗ (((c : Thread nD τ).loc main_call0_v2) ↦{fullShare} V' main_call0_v2) ∗ (((c : Thread nD τ).loc main_call0_v4) ↦{fullShare} V' main_call0_v4) ∗ (((c : Thread nD τ).loc main_call0_v9) ↦{fullShare} V' main_call0_v9) ∗ (((c : Thread nD τ).loc main_call0_v10) ↦{fullShare} V' main_call0_v10))
  have hs : ((((c : Thread nD τ).loc main_arg0) ↦{fullShare} V' main_arg0 : sProp 𝕄)
      ⊣⊢ iprop((((c : Thread nD τ).loc main_arg0) ↦{PosShare.left fullShare} V' main_arg0) ∗ (((c : Thread nD τ).loc main_arg0) ↦{PosShare.right fullShare} V' main_arg0))) :=
    pointsTo_share (PosShare.mem_left_op_right fullShare)
  constructor
  · iintro ⟨H0, H1, H3, H4, H5, H6, H7⟩
    ihave H := hs.1 $$ H0
    icases H with ⟨Hl, Hr⟩
    isplitl [Hl]; · iexact Hl
    isplitl [H1]; · iexact H1
    isplitl [Hr]; · iexact Hr
    isplitl [H3]; · iexact H3
    isplitl [H4]; · iexact H4
    isplitl [H5]; · iexact H5
    isplitl [H6]; · iexact H6
    iexact H7
  · iintro ⟨Hl, H1, Hr, H3, H4, H5, H6, H7⟩
    isplitl [Hl Hr]
    · iapply hs.2
      isplitl [Hl]; · iexact Hl
      iexact Hr
    isplitl [H1]; · iexact H1
    isplitl [H3]; · iexact H3
    isplitl [H4]; · iexact H4
    isplitl [H5]; · iexact H5
    isplitl [H6]; · iexact H6
    iexact H7

/-- ENTRY of region 0: the core's unscoped buffers at contents `V'` are the pipeline's arrays at the proof data's
    entry contents (those being read off `V'`) and the unscoped buffers no window reads. -/
theorem entry0 (c : Dev nD) (V : (c : Dev nD) → (b : Ref sig .tc) → Buf (Elt F) ((c : Thread nD τ).loc b))
    (V' : Valuation τ sig (Elt F)) (hA : ∀ w, (dat0 V c).A w = V' (Pipeline.arrRef spec0 w)) :
    (StableHlo.held (c : Thread nD τ) (Pipeline.ucRefs τ sig) V' : sProp 𝕄)
      ⊢ iprop((dat0 V c).arrays ((dat0 V c).arrAt · 0) ∗ Pipeline.unscopedRest spec0 c (fun b => V' b)) := by
  rw [← Pipeline.unscopedBufs_held (Ix := Unit) (Name := ℕ) (U := UR sig nD τ) (Lvl := ℕ) c V',
    Pipeline.unscopedBufs_split₀ cfgs 0 winFacts₀0.arr_unscoped c (fun b => V' b)]
  exact sep_mono (arrays0_iff c V (fun b => V' b) _ fun w => by rw [show (dat0 V c).arrAt w 0 = (dat0 V c).A w from rfl, hA]).1 .rfl

/-- EXIT of region 0: the pipeline's arrays at contents `Fc` and the untouched rest at `V₀` are the core's unscoped
    buffers at any contents `V'` that has the arrays at `Fc` and agrees with `V₀` off them. -/
theorem exit0 (c : Dev nD) (V : (c : Dev nD) → (b : Ref sig .tc) → Buf (Elt F) ((c : Thread nD τ).loc b))
    (V₀ V' : Valuation τ sig (Elt F))
    (Fc : (w : Fin cfg0.W) → Buf (Elt F) ((cfg0.win w).arr.view.loc (c : Thread nD τ))) (hF : ∀ w, Fc w = V' (Pipeline.arrRef spec0 w))
    (hrest : ∀ b : Ref sig .tc, b ∉ Finset.univ.image (Pipeline.arrRef spec0) → V' b = V₀ b) :
    iprop((dat0 V c).arrays Fc ∗ Pipeline.unscopedRest spec0 c (fun b => V₀ b))
      ⊢ (StableHlo.held (c : Thread nD τ) (Pipeline.ucRefs τ sig) V' : sProp 𝕄) := by
  rw [← Pipeline.unscopedBufs_held (Ix := Unit) (Name := ℕ) (U := UR sig nD τ) (Lvl := ℕ) c V',
    Pipeline.unscopedBufs_split₀ cfgs 0 winFacts₀0.arr_unscoped c (fun b => V' b)]
  refine sep_mono (arrays0_iff c V (fun b => V' b) Fc hF).2 (Entails.of_eq ?_)
  unfold Pipeline.unscopedRest
  exact bigSep_congr fun b hb => by dsimp only; rw [hrest b (Finset.mem_sdiff.mp hb).2]

/-- The distinct buffers behind region 1's windows. -/
theorem arrImage1 : Finset.univ.image (Pipeline.arrRef spec1)
    = ([main_call0_v10, main_arg1, main_call0_v0, main_call0_v6, main_call0_v8, main_call0_v11, main_arg0, main_v0] : List (Ref sig .tc)).toFinset := by decide

/-- The pipeline's arrays, window by window, over whole buffers at the proof data's shares. -/
theorem arrays1_eq (c : Dev nD) (V : (c : Dev nD) → (b : Ref sig .tc) → Buf (Elt F) ((c : Thread nD τ).loc b))
    (V' : (b : Ref sig .tc) → Buf (Elt F) ((c : Thread nD τ).loc b))
    (Fc : (w : Fin cfg1.W) → Buf (Elt F) ((cfg1.win w).arr.view.loc (c : Thread nD τ))) (hF : ∀ w, Fc w = V' (Pipeline.arrRef spec1 w)) :
    ((dat1 V c).arrays Fc : sProp 𝕄)
      = bigSep Finset.univ fun w : Fin cfg1.W => (((c : Thread nD τ).loc (Pipeline.arrRef spec1 w)) ↦{(dat1 V c).share w} V' (Pipeline.arrRef spec1 w) : sProp 𝕄) := by
  unfold Dat.arrays
  exact bigSep_congr fun w _ => by rw [(arr_whole1 w).set_eq_univ, hF w]

/-- The distinct buffers behind region 1's windows, each held whole, ARE the pipeline's arrays at the proof data's
    shares: the one buffer that windows 0 and 2 both read is dealt to them in two halves of the full share, every
    other buffer goes whole to its one window. -/
theorem arrays1_iff (c : Dev nD) (V : (c : Dev nD) → (b : Ref sig .tc) → Buf (Elt F) ((c : Thread nD τ).loc b))
    (V' : (b : Ref sig .tc) → Buf (Elt F) ((c : Thread nD τ).loc b))
    (Fc : (w : Fin cfg1.W) → Buf (Elt F) ((cfg1.win w).arr.view.loc (c : Thread nD τ))) (hF : ∀ w, Fc w = V' (Pipeline.arrRef spec1 w)) :
    (Pipeline.arrBufs (Ix := Unit) (Name := ℕ) (U := UR sig nD τ) (Lvl := ℕ) spec1 c V' : sProp 𝕄) ⊣⊢ (dat1 V c).arrays Fc := by
  rw [arrays1_eq c V V' Fc hF]
  unfold Pipeline.arrBufs
  rw [bigSep_W1, bigSep_eq_bigSepL_of_eq _ arrImage1 (by decide)]
  simp only [bigSepL_cons_cons, bigSepL_singleton]
  show (iprop((((c : Thread nD τ).loc main_call0_v10) ↦{fullShare} V' main_call0_v10) ∗ (((c : Thread nD τ).loc main_arg1) ↦{fullShare} V' main_arg1) ∗ (((c : Thread nD τ).loc main_call0_v0) ↦{fullShare} V' main_call0_v0) ∗ (((c : Thread nD τ).loc main_call0_v6) ↦{fullShare} V' main_call0_v6) ∗ (((c : Thread nD τ).loc main_call0_v8) ↦{fullShare} V' main_call0_v8) ∗ (((c : Thread nD τ).loc main_call0_v11) ↦{fullShare} V' main_call0_v11) ∗ (((c : Thread nD τ).loc main_arg0) ↦{fullShare} V' main_arg0) ∗ (((c : Thread nD τ).loc main_v0) ↦{fullShare} V' main_v0)) : sProp 𝕄)
    ⊣⊢ iprop((((c : Thread nD τ).loc main_call0_v10) ↦{PosShare.left fullShare} V' main_call0_v10) ∗ (((c : Thread nD τ).loc main_arg1) ↦{fullShare} V' main_arg1) ∗ (((c : Thread nD τ).loc main_call0_v10) ↦{PosShare.right fullShare} V' main_call0_v10) ∗ (((c : Thread nD τ).loc main_call0_v0) ↦{fullShare} V' main_call0_v0) ∗ (((c : Thread nD τ).loc main_call0_v6) ↦{fullShare} V' main_call0_v6) ∗ (((c : Thread nD τ).loc main_call0_v8) ↦{fullShare} V' main_call0_v8) ∗ (((c : Thread nD τ).loc main_call0_v11) ↦{fullShare} V' main_call0_v11) ∗ (((c : Thread nD τ).loc main_arg0) ↦{fullShare} V' main_arg0) ∗ (((c : Thread nD τ).loc main_v0) ↦{fullShare} V' main_v0))
  have hs : ((((c : Thread nD τ).loc main_call0_v10) ↦{fullShare} V' main_call0_v10 : sProp 𝕄)
      ⊣⊢ iprop((((c : Thread nD τ).loc main_call0_v10) ↦{PosShare.left fullShare} V' main_call0_v10) ∗ (((c : Thread nD τ).loc main_call0_v10) ↦{PosShare.right fullShare} V' main_call0_v10))) :=
    pointsTo_share (PosShare.mem_left_op_right fullShare)
  constructor
  · iintro ⟨H0, H1, H3, H4, H5, H6, H7, H8⟩
    ihave H := hs.1 $$ H0
    icases H with ⟨Hl, Hr⟩
    isplitl [Hl]; · iexact Hl
    isplitl [H1]; · iexact H1
    isplitl [Hr]; · iexact Hr
    isplitl [H3]; · iexact H3
    isplitl [H4]; · iexact H4
    isplitl [H5]; · iexact H5
    isplitl [H6]; · iexact H6
    isplitl [H7]; · iexact H7
    iexact H8
  · iintro ⟨Hl, H1, Hr, H3, H4, H5, H6, H7, H8⟩
    isplitl [Hl Hr]
    · iapply hs.2
      isplitl [Hl]; · iexact Hl
      iexact Hr
    isplitl [H1]; · iexact H1
    isplitl [H3]; · iexact H3
    isplitl [H4]; · iexact H4
    isplitl [H5]; · iexact H5
    isplitl [H6]; · iexact H6
    isplitl [H7]; · iexact H7
    iexact H8

/-- ENTRY of region 1: the core's unscoped buffers at contents `V'` are the pipeline's arrays at the proof data's
    entry contents (those being read off `V'`) and the unscoped buffers no window reads. -/
theorem entry1 (c : Dev nD) (V : (c : Dev nD) → (b : Ref sig .tc) → Buf (Elt F) ((c : Thread nD τ).loc b))
    (V' : Valuation τ sig (Elt F)) (hA : ∀ w, (dat1 V c).A w = V' (Pipeline.arrRef spec1 w)) :
    (StableHlo.held (c : Thread nD τ) (Pipeline.ucRefs τ sig) V' : sProp 𝕄)
      ⊢ iprop((dat1 V c).arrays ((dat1 V c).arrAt · 0) ∗ Pipeline.unscopedRest spec1 c (fun b => V' b)) := by
  rw [← Pipeline.unscopedBufs_held (Ix := Unit) (Name := ℕ) (U := UR sig nD τ) (Lvl := ℕ) c V',
    Pipeline.unscopedBufs_split₀ cfgs 1 winFacts₀1.arr_unscoped c (fun b => V' b)]
  exact sep_mono (arrays1_iff c V (fun b => V' b) _ fun w => by rw [show (dat1 V c).arrAt w 0 = (dat1 V c).A w from rfl, hA]).1 .rfl

/-- EXIT of region 1: the pipeline's arrays at contents `Fc` and the untouched rest at `V₀` are the core's unscoped
    buffers at any contents `V'` that has the arrays at `Fc` and agrees with `V₀` off them. -/
theorem exit1 (c : Dev nD) (V : (c : Dev nD) → (b : Ref sig .tc) → Buf (Elt F) ((c : Thread nD τ).loc b))
    (V₀ V' : Valuation τ sig (Elt F))
    (Fc : (w : Fin cfg1.W) → Buf (Elt F) ((cfg1.win w).arr.view.loc (c : Thread nD τ))) (hF : ∀ w, Fc w = V' (Pipeline.arrRef spec1 w))
    (hrest : ∀ b : Ref sig .tc, b ∉ Finset.univ.image (Pipeline.arrRef spec1) → V' b = V₀ b) :
    iprop((dat1 V c).arrays Fc ∗ Pipeline.unscopedRest spec1 c (fun b => V₀ b))
      ⊢ (StableHlo.held (c : Thread nD τ) (Pipeline.ucRefs τ sig) V' : sProp 𝕄) := by
  rw [← Pipeline.unscopedBufs_held (Ix := Unit) (Name := ℕ) (U := UR sig nD τ) (Lvl := ℕ) c V',
    Pipeline.unscopedBufs_split₀ cfgs 1 winFacts₀1.arr_unscoped c (fun b => V' b)]
  refine sep_mono (arrays1_iff c V (fun b => V' b) Fc hF).2 (Entails.of_eq ?_)
  unfold Pipeline.unscopedRest
  exact bigSep_congr fun b hb => by dsimp only; rw [hrest b (Finset.mem_sdiff.mp hb).2]

end Cert.KernelIdeal.Sh

end
-- ==== Proof.FrameRun.lean ====
/-
  The whole program as four items — the host operations before the first kernel, the first kernel's region, the one
  host operation between the kernels, the second kernel's region — each entered from what the one before it left in
  the core's unscoped buffers. Region 0 changes one buffer, the first layer's features, which end at what its 25
  write-backs leave; region 1 changes one buffer, the result. No item writes an argument, so the arguments end as
  launched; and the result buffer ends at what region 1's write-backs leave, which the value modules read.
-/
import proofs.«122714_g32341103738939_cont_8to1_b_155_6_alg».proof.Proof.Gen.KernelIdeal.Launch
import proofs.«122714_g32341103738939_cont_8to1_b_155_6_alg».proof.Proof.Gen.KernelIdeal.Skeleton
import proofs.«122714_g32341103738939_cont_8to1_b_155_6_alg».proof.Proof.Gen.KernelIdeal.Points
import proofs.«122714_g32341103738939_cont_8to1_b_155_6_alg».proof.Proof.Gen.KernelIdeal.Regions
import proofs.«122714_g32341103738939_cont_8to1_b_155_6_alg».proof.Proof.FrameR0
import proofs.«122714_g32341103738939_cont_8to1_b_155_6_alg».proof.Proof.FrameR1
import proofs.«122714_g32341103738939_cont_8to1_b_155_6_alg».proof.Proof.Shared
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Fr0 Cert.KernelIdeal.Fr1

variable (m : (ℓ : Loc nD τ sig) → Buf (Elt F) ℓ) (ρ : Dev nD → PrngReg)

/-! ## The buffers' contents between the items -/

/-- Region 0's entry contents, read at the TensorCore's references. -/
abbrev V1r : (c : Dev nD) → (b : Ref sig .tc) → Buf (Elt F) ((c : Thread nD τ).loc b) := fun c b => Gen.V1 m c b
/-- What region 0 leaves in the first layer's features: its write-backs folded over the entry contents. -/
def o2 (c : Dev nD) : Buf (Elt F) ((c : Thread nD τ).loc main_call0_v10) := (dat0 (V1r m) c).arrAt 7 cfg0.N
/-- After region 0: the entry contents with that one buffer replaced. -/
def W2 (c : Dev nD) : Valuation τ sig (Elt F) := Function.update (Gen.V1 m c) main_call0_v10 (o2 m c)
/-- After the host operation between the kernels: region 1's entry contents. -/
def W3 (c : Dev nD) : Valuation τ sig (Elt F) := StableHlo.after hostOps1 (W2 m c)
abbrev V3r : (c : Dev nD) → (b : Ref sig .tc) → Buf (Elt F) ((c : Thread nD τ).loc b) := fun c b => W3 m c b
/-- What region 1 leaves in the result buffer. -/
def o4 (c : Dev nD) : Buf (Elt F) ((c : Thread nD τ).loc main_v0) := (dat1 (V3r m) c).arrAt 8 cfg1.N
/-- After region 1. -/
def W4 (c : Dev nD) : Valuation τ sig (Elt F) := Function.update (W3 m c) main_v0 (o4 m c)

/-- What the two regions leave, as the family the generated host side is written over: the first layer's features
    after region 0, the result after region 1 (any other reference: unread). -/
def outs : Gen.Outs (F := F) := fun _ r c =>
  if h : r = main_call0_v10 then h ▸ o2 m c else if h' : r = main_v0 then h' ▸ o4 m c else Gen.V1 m c r

theorem outs_v10 (c : Dev nD) : outs m 2 main_call0_v10 c = o2 m c := by
  unfold outs; rw [dif_pos rfl]
theorem outs_v0 (c : Dev nD) : outs m 4 main_v0 c = o4 m c := by
  unfold outs; rw [dif_neg (by decide), dif_pos rfl]

theorem V2_eq (c : Dev nD) : Gen.V2 m (outs m) c = W2 m c := by
  unfold W2; rw [← outs_v10]
theorem V3_eq (c : Dev nD) : Gen.V3 m (outs m) c = W3 m c := by
  unfold W3; rw [← V2_eq]
theorem V4_eq (c : Dev nD) : Gen.V4 m (outs m) c = W4 m c := by
  unfold W4; rw [← outs_v0, ← V3_eq]

/-! ### At a region's exit its arrays hold what the pipeline leaves, every other buffer what it held at entry -/

theorem W2_v10 (c : Dev nD) : W2 m c main_call0_v10 = o2 m c := by unfold W2; exact Function.update_self ..
theorem W2_of_ne (c : Dev nD) (b : Ref sig .tc) (h : b ≠ main_call0_v10) : W2 m c b = Gen.V1 m c b := by
  unfold W2; exact Function.update_of_ne (StableHlo.devRef_ne_of_ne h) ..
theorem W4_v0 (c : Dev nD) : W4 m c main_v0 = o4 m c := by unfold W4; exact Function.update_self ..
theorem W4_of_ne (c : Dev nD) (b : Ref sig .tc) (h : b ≠ main_v0) : W4 m c b = W3 m c b := by
  unfold W4; exact Function.update_of_ne (StableHlo.devRef_ne_of_ne h) ..

theorem hF0 (c : Dev nD) : ∀ w : Fin cfg0.W, (dat0 (V1r m) c).arrAt w cfg0.N = W2 m c (Pipeline.arrRef spec0 w)
  | ⟨0, _⟩ => ((dat0 (V1r m) c).arrAt_in 0 rfl _).trans ((A_eq0 (V1r m) c 0).trans (W2_of_ne m c _ (by decide)).symm)
  | ⟨1, _⟩ => ((dat0 (V1r m) c).arrAt_in 1 rfl _).trans ((A_eq0 (V1r m) c 1).trans (W2_of_ne m c _ (by decide)).symm)
  | ⟨2, _⟩ => ((dat0 (V1r m) c).arrAt_in 2 rfl _).trans ((A_eq0 (V1r m) c 2).trans (W2_of_ne m c _ (by decide)).symm)
  | ⟨3, _⟩ => ((dat0 (V1r m) c).arrAt_in 3 rfl _).trans ((A_eq0 (V1r m) c 3).trans (W2_of_ne m c _ (by decide)).symm)
  | ⟨4, _⟩ => ((dat0 (V1r m) c).arrAt_in 4 rfl _).trans ((A_eq0 (V1r m) c 4).trans (W2_of_ne m c _ (by decide)).symm)
  | ⟨5, _⟩ => ((dat0 (V1r m) c).arrAt_in 5 rfl _).trans ((A_eq0 (V1r m) c 5).trans (W2_of_ne m c _ (by decide)).symm)
  | ⟨6, _⟩ => ((dat0 (V1r m) c).arrAt_in 6 rfl _).trans ((A_eq0 (V1r m) c 6).trans (W2_of_ne m c _ (by decide)).symm)
  | ⟨7, _⟩ => (W2_v10 m c).symm
theorem hrest0 (c : Dev nD) : ∀ b : Ref sig .tc, b ∉ Finset.univ.image (Pipeline.arrRef spec0) → W2 m c b = Gen.V1 m c b :=
  fun b hb => W2_of_ne m c b fun e => hb (Finset.mem_image.mpr ⟨7, Finset.mem_univ _, e.symm⟩)

theorem hF1 (c : Dev nD) : ∀ w : Fin cfg1.W, (dat1 (V3r m) c).arrAt w cfg1.N = W4 m c (Pipeline.arrRef spec1 w)
  | ⟨0, _⟩ => ((dat1 (V3r m) c).arrAt_in 0 rfl _).trans ((A_eq1 (V3r m) c 0).trans (W4_of_ne m c _ (by decide)).symm)
  | ⟨1, _⟩ => ((dat1 (V3r m) c).arrAt_in 1 rfl _).trans ((A_eq1 (V3r m) c 1).trans (W4_of_ne m c _ (by decide)).symm)
  | ⟨2, _⟩ => ((dat1 (V3r m) c).arrAt_in 2 rfl _).trans ((A_eq1 (V3r m) c 2).trans (W4_of_ne m c _ (by decide)).symm)
  | ⟨3, _⟩ => ((dat1 (V3r m) c).arrAt_in 3 rfl _).trans ((A_eq1 (V3r m) c 3).trans (W4_of_ne m c _ (by decide)).symm)
  | ⟨4, _⟩ => ((dat1 (V3r m) c).arrAt_in 4 rfl _).trans ((A_eq1 (V3r m) c 4).trans (W4_of_ne m c _ (by decide)).symm)
  | ⟨5, _⟩ => ((dat1 (V3r m) c).arrAt_in 5 rfl _).trans ((A_eq1 (V3r m) c 5).trans (W4_of_ne m c _ (by decide)).symm)
  | ⟨6, _⟩ => ((dat1 (V3r m) c).arrAt_in 6 rfl _).trans ((A_eq1 (V3r m) c 6).trans (W4_of_ne m c _ (by decide)).symm)
  | ⟨7, _⟩ => ((dat1 (V3r m) c).arrAt_in 7 rfl _).trans ((A_eq1 (V3r m) c 7).trans (W4_of_ne m c _ (by decide)).symm)
  | ⟨8, _⟩ => (W4_v0 m c).symm
theorem hrest1 (c : Dev nD) : ∀ b : Ref sig .tc, b ∉ Finset.univ.image (Pipeline.arrRef spec1) → W4 m c b = W3 m c b :=
  fun b hb => W4_of_ne m c b fun e => hb (Finset.mem_image.mpr ⟨8, Finset.mem_univ _, e.symm⟩)

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (V1r m) c
  | ⟨1, _⟩ => fun c => dat1 (V3r m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)

-- the library's region lemmas are stated over the pinned configuration; unification has to unfold plain definitions
-- in a metavariable's type to see the printed one
set_option backward.isDefEq.respectTransparency.types false in
/-- REGION 0 as a segment: entered from every unscoped buffer at the contents before it, left at the contents after
    it. Its arrays are split out of the unscoped buffers at entry and put back at exit (the shared buffer in two
    halves); the generator register goes into the invariant and comes out; nothing is owed; the kernel has no
    semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V1r m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1r m c)
  hentry c := by
    rw [Pipeline.ownSems0_none]
    have hsplit := Sh.entry0 c (V1r m) (Gen.V1 m c) (fun w => A_eq0 (V1r m) c w)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Sh.exit0 c (V1r m) (Gen.V1 m c) (W2 m c) ((pdats m 0 c).arrAt · cfg0.N) (hF0 m c) (hrest0 m c)
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

-- the library's region lemmas are stated over the pinned configuration; unification has to unfold plain definitions
-- in a metavariable's type to see the printed one
set_option backward.isDefEq.respectTransparency.types false in
/-- REGION 1 as a segment: entered from every unscoped buffer at the contents before it, left at the contents after
    it. Its arrays are split out of the unscoped buffers at entry and put back at exit (the shared buffer in two
    halves); the generator register goes into the invariant and comes out; nothing is owed; the kernel has no
    semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3r m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3r m c)
  hentry c := by
    rw [Pipeline.ownSems0_none]
    have hsplit := Sh.entry1 c (V3r m) (W3 m c) (fun w => A_eq1 (V3r m) c w)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Sh.exit1 c (V3r m) (W3 m c) (W4 m c) ((pdats m 1 c).arrAt · cfg1.N) (hF1 m c) (hrest1 m c)
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The run -/

theorem hpre0 (c : Dev nD) : iprop(StableHlo.held (c : Thread nD τ) (Pipeline.ucRefs τ sig) (Gen.V1 m c) ∗ R c) ⊢ (reg0 m).pre c := .rfl
theorem hpost0 (c : Dev nD) : (reg0 m).post c ⊢ iprop(StableHlo.held (c : Thread nD τ) (Pipeline.ucRefs τ sig) (Gen.V2 m (outs m) c) ∗ R c) := by
  rw [V2_eq]; exact .rfl
theorem hpre1 (c : Dev nD) : iprop(StableHlo.held (c : Thread nD τ) (Pipeline.ucRefs τ sig) (Gen.V3 m (outs m) c) ∗ R c) ⊢ (reg1 m).pre c := by
  rw [V3_eq]; exact .rfl
theorem hpost1 (c : Dev nD) : (reg1 m).post c ⊢ iprop(StableHlo.held (c : Thread nD τ) (Pipeline.ucRefs τ sig) (Gen.V4 m (outs m) c) ∗ R c) := by
  rw [V4_eq]; exact .rfl

/-- The result buffer after the last item is what region 1's write-backs leave. -/
theorem V4_main_v0 (c : Dev nD) : Gen.V4 m (outs m) c main_v0 = o4 m c := by
  rw [V4_eq]; exact W4_v0 m c

-- the kit theorem's implicit arguments are found by unifying its conclusion with this one, which takes unfolding
-- plain definitions in a metavariable's type
set_option backward.isDefEq.respectTransparency.types false in
/-- THE RUN, at any float instance: from any memory with zero counters every weakly fair execution of @main on the
    TensorCores terminates, nothing faulting, with the result buffer at what region 1's write-backs leave and every
    argument as launched. -/
theorem run : θ_run defs (onTc (τ := τ) (main (F := F))) ⟨m, fun _ => 0, ρ⟩ (fun r => ∀ c : Dev nD,
      r.2.mem ((c.tc : Thread nD τ).loc main_v0) = o4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) Gen.adm (pdats m) () cellOf_inj emb₁ defs₀ 𝒱₀ L lv m ρ main
    (Gen.segs m (outs m) 𝒱₀ L lv (fun _ c => R c) () (pdats m) (reg0 m) (reg1 m))
    (fun c Q => by
      rewrite [main_chain c, Pipeline.Seg.run_eq_chain,
        show (Gen.segs m (outs m) 𝒱₀ L lv (fun _ c => R c) () (pdats m) (reg0 m) (reg1 m) c).map Pipeline.Seg.prog = [
          StableHlo.seq hostOps0,
          Prog.lift (.customCall (Pipeline.entry 0) ()),
          StableHlo.seq hostOps1,
          Prog.lift (.customCall (Pipeline.entry 1) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (Gen.V4 m (outs m) c) ∗ ∃ r, prngReg c r))
    (hch := fun c => ⟨.rfl, hpre0 m c, hpost0 m c, hpre1 m c, (hpost1 m c).trans (by
      iintro ⟨Hh, Hp, HO⟩
      isplitl [Hh Hp]
      · isplitl [Hh]; · iexact Hh
        iexact Hp
      iexact HO)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V4 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V4 m (outs m) c) s')
      isplitl [Hh] <;> iassumption)
    (hQ := fun s h c =>
      ⟨(h c _ (Finset.mem_filter.mpr ⟨StableHlo.devRef_mem_tcRefs main_v0, by decide⟩)).trans (V4_main_v0 m c),
       (h c _ (Finset.mem_filter.mpr ⟨StableHlo.devRef_mem_tcRefs main_arg0, by decide⟩)).trans (Gen.V4_main_arg0 m (outs m) c),
       (h c _ (Finset.mem_filter.mpr ⟨StableHlo.devRef_mem_tcRefs main_arg1, by decide⟩)).trans (Gen.V4_main_arg1 m (outs m) c),
       (h c _ (Finset.mem_filter.mpr ⟨StableHlo.devRef_mem_tcRefs main_arg2, by decide⟩)).trans (Gen.V4_main_arg2 m (outs m) c),
       (h c _ (Finset.mem_filter.mpr ⟨StableHlo.devRef_mem_tcRefs main_arg3, by decide⟩)).trans (Gen.V4_main_arg3 m (outs m) c),
       (h c _ (Finset.mem_filter.mpr ⟨StableHlo.devRef_mem_tcRefs main_arg4, by decide⟩)).trans (Gen.V4_main_arg4 m (outs m) c),
       (h c _ (Finset.mem_filter.mpr ⟨StableHlo.devRef_mem_tcRefs main_arg5, by decide⟩)).trans (Gen.V4_main_arg5 m (outs m) c),
       (h c _ (Finset.mem_filter.mpr ⟨StableHlo.devRef_mem_tcRefs main_arg6, by decide⟩)).trans (Gen.V4_main_arg6 m (outs m) c)⟩)

/-- THE FRAME, at any float instance: the run, the result forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run m ρ)

end Cert.KernelIdeal.Run

end
-- ==== Proof.Spec.lean ====
/-
  The function both programs compute, entry by entry, on the extended reals.

  A graph-convolution layer takes node features `h` (10000 × 128), a dense adjacency `adj` (10000 × 10000), a
  neighbour count `nn` (10000), a weight `W` (128 × 256) and a bias `b` (128). The neighbour mean of node `r` in
  feature `k` is `(Σ_l adj[r,l] · h[l,k]) / (nn[r] + ε)`. The layer's output at `(r, j)` is
  `max (Σ_{k<128} h[r,k] · W[j,k] + Σ_{k<128} mean[r,k] · W[j,128+k] + b[j]) 0`: the row `[h[r,:], mean[r,:]]` of
  length 256 against row `j` of `W`, written as the sum of its two halves. The whole result (10000 × 256) is two
  layers in its columns 0..127 and the input features in its columns 128..255.

  No finiteness is assumed anywhere: the only law used to join the two programs is that a sum over 256 terms is the
  sum of its first 128 and its last 128 terms, which holds in any commutative additive monoid.
-/
import Idealize.ShloMosaic.PureOps.Ideal
import Idealize.ShloMosaic.Lib.ValueIdx

noncomputable section

open scoped BigOperators

namespace Cert.Spec

open Idealize.ShloMosaic Idealize.ShloMosaic.ValueIdx

/-- Node features, 10000 × 128. -/
abbrev SNxD : Shape := ⟨2, ![10000, 128]⟩
/-- The adjacency, 10000 × 10000. -/
abbrev SNxN : Shape := ⟨2, ![10000, 10000]⟩
/-- One number per node. -/
abbrev SN : Shape := ⟨1, ![10000]⟩
/-- A layer's weight, 128 × 256. -/
abbrev SHx2D : Shape := ⟨2, ![128, 256]⟩
/-- A layer's bias. -/
abbrev SH : Shape := ⟨1, ![128]⟩
/-- The result, 10000 × 256. -/
abbrev SNx2D : Shape := ⟨2, ![10000, 256]⟩

/-- The single-precision word for 1e-7, as the extended real it denotes. It is the same word in both programs, so its
    value is never computed. -/
def eps : EReal := Ideal.ofBits .f32 0x33D6BF95#32
/-- The single-precision zero word, as an extended real (it is `0`; kept as the word both programs spell). -/
def zero : EReal := Ideal.ofBits .f32 0x00000000#32

/-- Column `k` of the first half of a weight's 256 columns. -/
def lo (k : Fin 128) : Fin 256 := ⟨k.val, by omega⟩
/-- Column `128 + k`: the second half. -/
def hi (k : Fin 128) : Fin 256 := ⟨128 + k.val, by omega⟩

/-- The neighbour mean of node `r` in feature `k`. -/
def nbr (h : SNxD.Idx → EReal) (adj : SNxN.Idx → EReal) (nn : SN.Idx → EReal) (r : Fin 10000) (k : Fin 128) : EReal :=
  Ideal.div (∑ l : Fin 10000, adj (ix2 r l) * h (ix2 l k)) (nn (ix1 r) + eps)

/-- One layer at entry `(r, j)`, the 256-term product written as its two halves. -/
def layer (h : SNxD.Idx → EReal) (adj : SNxN.Idx → EReal) (nn : SN.Idx → EReal) (W : SHx2D.Idx → EReal) (b : SH.Idx → EReal)
    (r : Fin 10000) (j : Fin 128) : EReal :=
  max (((∑ k : Fin 128, h (ix2 r k) * W (ix2 j (lo k))) + (∑ k : Fin 128, nbr h adj nn r k * W (ix2 j (hi k)))) + b (ix1 j)) zero

/-- One layer as a whole array. -/
def layerArr (h : SNxD.Idx → EReal) (adj : SNxN.Idx → EReal) (nn : SN.Idx → EReal) (W : SHx2D.Idx → EReal) (b : SH.Idx → EReal) :
    SNxD.Idx → EReal :=
  fun i => layer h adj nn W b ⟨(i 0).val, idx2_lt0 i⟩ ⟨(i 1).val, idx2_lt1 i⟩

/-- The whole result: two layers in columns 0..127, the input features in columns 128..255. -/
def out (x : SNxD.Idx → EReal) (adj : SNxN.Idx → EReal) (nn : SN.Idx → EReal) (W1 : SHx2D.Idx → EReal) (b1 : SH.Idx → EReal)
    (W2 : SHx2D.Idx → EReal) (b2 : SH.Idx → EReal) : SNx2D.Idx → EReal :=
  fun i =>
    if hlt : (i 1).val < 128 then layer (layerArr x adj nn W1 b1) adj nn W2 b2 ⟨(i 0).val, idx2_lt0 i⟩ ⟨(i 1).val, hlt⟩
    else x (ix2 ⟨(i 0).val, idx2_lt0 i⟩ ⟨(i 1).val - 128, by have := idx2_lt1 i; omega⟩)

end Cert.Spec

end
-- ==== Proof.HostGlue.lean ====
/-
  What the kernels find in the buffers that the program's plain array operations prepare for them.

  Before the first kernel the program spreads the neighbour-count vector into a column, cuts each 128 × 256 weight into
  its first and its last 128 columns and transposes each half, and spreads the first bias vector into a row; between the
  two kernels it spreads the second bias vector into a row. Read at an index: the column's entry in row r is the count
  of node r; a transposed half at (k, j) is the weight at (j, k), respectively at (j, 128 + k); a bias row's entry in
  column j is the bias at j. The features and the adjacency are never written, and the first kernel's result is what the
  second kernel reads.
-/
import proofs.«122714_g32341103738939_cont_8to1_b_155_6_alg».proof.Proof.Gen.KernelIdeal.Regions
import proofs.«122714_g32341103738939_cont_8to1_b_155_6_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

open scoped BigOperators

namespace Cert.KernelIdeal.Glue

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (outs : Outs (F := Ideal)) (c : Dev nD)

/-! ## The operations' terms at an index, over variables -/

/-- A count vector spread into a column: the column's entry in row r is the vector's entry r. -/
theorem column_apply (v : S10000.Idx → EReal) (r : Fin 10000) :
    broadcastInDim S10000x1 ![0] bcast_S10000_S10000x1_0 v (ix2 r (0 : Fin 1)) = v (ix1 r) :=
  broadcastInDim_apply _ bcast_S10000_S10000x1_0 v (ix2 r (0 : Fin 1)) (ix1 r) (fun a => match a with
    | ⟨0, _⟩ => by show r.val = if (10000 : Nat) = 1 then 0 else r.val; rw [if_neg (by decide)])

/-- A bias vector spread into a row: the row's entry in column j is the vector's entry j. -/
theorem row_apply (v : S128.Idx → EReal) (j : Fin 128) :
    broadcastInDim S1x128 ![1] bcast_S128_S1x128_1 v (ix2 (0 : Fin 1) j) = v (ix1 j) :=
  broadcastInDim_apply _ bcast_S128_S1x128_1 v (ix2 (0 : Fin 1) j) (ix1 j) (fun a => match a with
    | ⟨0, _⟩ => by show j.val = if (128 : Nat) = 1 then 0 else j.val; rw [if_neg (by decide)])

/-- The transpose of a weight's first 128 columns at (k, j) is the weight at (j, k). -/
theorem firstHalfT_apply (w : S128x256.Idx → EReal) (k j : Fin 128) :
    transpose S128x128 [1, 0] (extractStridedSlice S128x128 ![0, 0] w slices_S128x256_S128x128_0_0)
      transposes_S128x128_S128x128_1_0 (ix2 k j) = w (ix2 j (Cert.Spec.lo k)) := by
  refine (transpose_apply [1, 0] _ transposes_S128x128_S128x128_1_0 (ix2 k j) (ix2 j k) (fun a => match a with
    | ⟨0, _⟩ => rfl
    | ⟨1, _⟩ => rfl)).trans ?_
  exact extractStridedSlice_apply ![0, 0] w slices_S128x256_S128x128_0_0 (ix2 j k) (ix2 j (Cert.Spec.lo k)) (fun a => match a with
    | ⟨0, _⟩ => (Nat.zero_add _).symm
    | ⟨1, _⟩ => (Nat.zero_add _).symm)

/-- The transpose of a weight's last 128 columns at (k, j) is the weight at (j, 128 + k). -/
theorem secondHalfT_apply (w : S128x256.Idx → EReal) (k j : Fin 128) :
    transpose S128x128 [1, 0] (extractStridedSlice S128x128 ![0, 128] w slices_S128x256_S128x128_0_128)
      transposes_S128x128_S128x128_1_0 (ix2 k j) = w (ix2 j (Cert.Spec.hi k)) := by
  refine (transpose_apply [1, 0] _ transposes_S128x128_S128x128_1_0 (ix2 k j) (ix2 j k) (fun a => match a with
    | ⟨0, _⟩ => rfl
    | ⟨1, _⟩ => rfl)).trans ?_
  exact extractStridedSlice_apply ![0, 128] w slices_S128x256_S128x128_0_128 (ix2 j k) (ix2 j (Cert.Spec.hi k)) (fun a => match a with
    | ⟨0, _⟩ => (Nat.zero_add _).symm
    | ⟨1, _⟩ => rfl)

/-! ## What the host operations leave in each buffer the kernels read -/

/-- The count column holds the count vector. -/
theorem glue_nn (r : Fin 10000) :
    (V1 m c main_call0_v0 : S10000x1.Idx → EReal) (ix2 r (0 : Fin 1)) = m ((c : Thread nD τ).loc main_arg2) (ix1 r) := by
  have e : (V1 m c main_call0_v0 : S10000x1.Idx → EReal)
      = broadcastInDim S10000x1 ![0] bcast_S10000_S10000x1_0 (m ((c : Thread nD τ).loc main_arg2)) := by
    dsimp only [V1, V0, hostOps0]; after_results; rfl
  rw [e]; exact column_apply _ r

/-- The first weight's first half, transposed. -/
theorem glue_w1a (k j : Fin 128) :
    (V1 m c main_call0_v2 : S128x128.Idx → EReal) (ix2 k j) = m ((c : Thread nD τ).loc main_arg3) (ix2 j (Cert.Spec.lo k)) := by
  have e : (V1 m c main_call0_v2 : S128x128.Idx → EReal)
      = transpose S128x128 [1, 0] (extractStridedSlice S128x128 ![0, 0] (m ((c : Thread nD τ).loc main_arg3)) slices_S128x256_S128x128_0_0) transposes_S128x128_S128x128_1_0 := by
    dsimp only [V1, V0, hostOps0]; after_results; rfl
  rw [e]; exact firstHalfT_apply _ k j

/-- The first weight's second half, transposed. -/
theorem glue_w1b (k j : Fin 128) :
    (V1 m c main_call0_v4 : S128x128.Idx → EReal) (ix2 k j) = m ((c : Thread nD τ).loc main_arg3) (ix2 j (Cert.Spec.hi k)) := by
  have e : (V1 m c main_call0_v4 : S128x128.Idx → EReal)
      = transpose S128x128 [1, 0] (extractStridedSlice S128x128 ![0, 128] (m ((c : Thread nD τ).loc main_arg3)) slices_S128x256_S128x128_0_128) transposes_S128x128_S128x128_1_0 := by
    dsimp only [V1, V0, hostOps0]; after_results; rfl
  rw [e]; exact secondHalfT_apply _ k j

/-- The second weight's first half, transposed. -/
theorem glue_w2a (k j : Fin 128) :
    (V1 m c main_call0_v6 : S128x128.Idx → EReal) (ix2 k j) = m ((c : Thread nD τ).loc main_arg5) (ix2 j (Cert.Spec.lo k)) := by
  have e : (V1 m c main_call0_v6 : S128x128.Idx → EReal)
      = transpose S128x128 [1, 0] (extractStridedSlice S128x128 ![0, 0] (m ((c : Thread nD τ).loc main_arg5)) slices_S128x256_S128x128_0_0) transposes_S128x128_S128x128_1_0 := by
    dsimp only [V1, V0, hostOps0]; after_results; rfl
  rw [e]; exact firstHalfT_apply _ k j

/-- The second weight's second half, transposed. -/
theorem glue_w2b (k j : Fin 128) :
    (V1 m c main_call0_v8 : S128x128.Idx → EReal) (ix2 k j) = m ((c : Thread nD τ).loc main_arg5) (ix2 j (Cert.Spec.hi k)) := by
  have e : (V1 m c main_call0_v8 : S128x128.Idx → EReal)
      = transpose S128x128 [1, 0] (extractStridedSlice S128x128 ![0, 128] (m ((c : Thread nD τ).loc main_arg5)) slices_S128x256_S128x128_0_128) transposes_S128x128_S128x128_1_0 := by
    dsimp only [V1, V0, hostOps0]; after_results; rfl
  rw [e]; exact secondHalfT_apply _ k j

/-- The first bias row holds the first bias vector. -/
theorem glue_b1 (j : Fin 128) :
    (V1 m c main_call0_v9 : S1x128.Idx → EReal) (ix2 (0 : Fin 1) j) = m ((c : Thread nD τ).loc main_arg4) (ix1 j) := by
  have e : (V1 m c main_call0_v9 : S1x128.Idx → EReal)
      = broadcastInDim S1x128 ![1] bcast_S128_S1x128_1 (m ((c : Thread nD τ).loc main_arg4)) := by
    dsimp only [V1, V0, hostOps0]; after_results; rfl
  rw [e]; exact row_apply _ j

/-- The second bias row, written between the two kernels, holds the second bias vector. -/
theorem glue_b2 (j : Fin 128) :
    (V3 m outs c main_call0_v11 : S1x128.Idx → EReal) (ix2 (0 : Fin 1) j) = m ((c : Thread nD τ).loc main_arg6) (ix1 j) := by
  have e6 : V2 m outs c main_arg6 = m ((c : Thread nD τ).loc main_arg6) :=
    (V2_of m outs c main_arg6 (by decide)).trans <| (V1_of m c main_arg6 (by decide)).trans rfl
  have e : (V3 m outs c main_call0_v11 : S1x128.Idx → EReal)
      = broadcastInDim S1x128 ![1] bcast_S128_S1x128_1 (V2 m outs c main_arg6) := by
    dsimp only [V3, hostOps1]; after_results; rfl
  rw [e, e6]; exact row_apply _ j

/-! ## What no host operation and no earlier kernel changes -/

/-- The features are as launched when the first kernel starts. -/
theorem V1_arg0 : V1 m c main_arg0 = m ((c : Thread nD τ).loc main_arg0) :=
  (V1_of m c main_arg0 (by decide)).trans rfl
/-- The adjacency is as launched when the first kernel starts. -/
theorem V1_arg1 : V1 m c main_arg1 = m ((c : Thread nD τ).loc main_arg1) :=
  (V1_of m c main_arg1 (by decide)).trans rfl
/-- The features are as launched when the second kernel starts. -/
theorem V3_arg0 : V3 m outs c main_arg0 = m ((c : Thread nD τ).loc main_arg0) :=
  (V3_of m outs c main_arg0 (by decide)).trans <| (V2_of m outs c main_arg0 (by decide)).trans <| (V1_of m c main_arg0 (by decide)).trans rfl
/-- The adjacency is as launched when the second kernel starts. -/
theorem V3_arg1 : V3 m outs c main_arg1 = m ((c : Thread nD τ).loc main_arg1) :=
  (V3_of m outs c main_arg1 (by decide)).trans <| (V2_of m outs c main_arg1 (by decide)).trans <| (V1_of m c main_arg1 (by decide)).trans rfl
/-- The count column is unchanged between the kernels. -/
theorem V3_v0 : V3 m outs c main_call0_v0 = V1 m c main_call0_v0 :=
  (V3_of m outs c main_call0_v0 (by decide)).trans (V2_of m outs c main_call0_v0 (by decide))
/-- The second weight's first half, transposed, is unchanged between the kernels. -/
theorem V3_v6 : V3 m outs c main_call0_v6 = V1 m c main_call0_v6 :=
  (V3_of m outs c main_call0_v6 (by decide)).trans (V2_of m outs c main_call0_v6 (by decide))
/-- The second weight's second half, transposed, is unchanged between the kernels. -/
theorem V3_v8 : V3 m outs c main_call0_v8 = V1 m c main_call0_v8 :=
  (V3_of m outs c main_call0_v8 (by decide)).trans (V2_of m outs c main_call0_v8 (by decide))
/-- The second kernel reads, as its features, what the first kernel left. -/
theorem V3_v10 : V3 m outs c main_call0_v10 = outs 2 main_call0_v10 c :=
  (V3_of m outs c main_call0_v10 (by decide)).trans (by simp only [V2, Function.update_self])

end Cert.KernelIdeal.Glue

end
-- ==== Proof.Payload.lean ====
/-
  The two layer blocks' arithmetic, read at one entry.

  Each kernel body computes, from a 400-row slab of the adjacency, all node features, the slab's neighbour counts, the
  slab's own features, the two transposed halves of the weight and the bias row, the block
  `max (h_b · Wa + ((A_b · h) / (n_b + ε)) · Wb + bias) 0`. Here it is read at entry `(y, j)` as plain sums over
  `Fin 128` and `Fin 10000`: a matrix product accumulated into zero is the sum over its one contraction axis, a
  column broadcast along rows reads the column at the row, a row broadcast down the rows reads the row at the column,
  and narrowing to a shorter format or casting to the same shape changes nothing on extended reals. No value of a
  float word is computed: `ε` and the zero stay the words both programs spell.
-/
import proofs.«122714_g32341103738939_cont_8to1_b_155_6_alg».proof.Proof.Gen.KernelIdeal.Skeleton
import proofs.«122714_g32341103738939_cont_8to1_b_155_6_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-- Row coordinate of the left operand's index: the result's row. -/
theorem mmBig_lhs0 (i : S400x128.Idx) (q : dot_S400x10000_S10000x128_S400x128_1_0_0_1_n_n.contr.Idx) : (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
/-- Column coordinate of the left operand's index: the contraction position. -/
theorem mmBig_lhs1 (i : S400x128.Idx) (q : dot_S400x10000_S10000x128_S400x128_1_0_0_1_n_n.contr.Idx) : (dot_S400x10000_S10000x128_S400x128_1_0_0_1_n_n.lhsIdx i q 1).val = (q ⟨0, by decide⟩).val :=
  dot_S400x10000_S10000x128_S400x128_1_0_0_1_n_n.lhsIdx_val_of_single rfl i q
/-- Row coordinate of the right operand's index: the contraction position. -/
theorem mmBig_rhs0 (i : S400x128.Idx) (q : dot_S400x10000_S10000x128_S400x128_1_0_0_1_n_n.contr.Idx) : (dot_S400x10000_S10000x128_S400x128_1_0_0_1_n_n.rhsIdx i q 0).val = (q ⟨0, by decide⟩).val :=
  dot_S400x10000_S10000x128_S400x128_1_0_0_1_n_n.rhsIdx_val_of_single rfl i q
/-- Column coordinate of the right operand's index: the result's column. -/
theorem mmBig_rhs1 (i : S400x128.Idx) (q : dot_S400x10000_S10000x128_S400x128_1_0_0_1_n_n.contr.Idx) : (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- A matrix product accumulated into zero, read at `(y, j)`: the sum over the 10000 contraction positions of the left
    operand at `(y, k)` times the right operand at `(k, j)`. -/
theorem mmBig_apply {φ₁ φ₂ : FTy} (l : FVec Ideal S400x10000 φ₁) (r : FVec Ideal S10000x128 φ₂) (y : Fin 400) (j : Fin 128) :
    matmul (F := Ideal) dot_S400x10000_S10000x128_S400x128_1_0_0_1_n_n none l r (constant (F := Ideal) S400x128 .f32 0x00000000#32) (ix2 y j)
      = ∑ k : Fin 10000, l (ix2 y k) * r (ix2 k j) := by
  refine (Ideal.matmul_constant_zero_apply dot_S400x10000_S10000x128_S400x128_1_0_0_1_n_n none l r (ix2 y j)).trans ?_
  rw [← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 y j) ((contrEquiv1 dot_S400x10000_S10000x128_S400x128_1_0_0_1_n_n 10000 rfl rfl).symm k) = ix2 y k := funext fun a => Fin.ext (by
    match a with
    | ⟨0, _⟩ => exact mmBig_lhs0 _ _
    | ⟨1, _⟩ => exact (mmBig_lhs1 _ _).trans hk)
  have er : dot_S400x10000_S10000x128_S400x128_1_0_0_1_n_n.rhsIdx (ix2 y j) ((contrEquiv1 dot_S400x10000_S10000x128_S400x128_1_0_0_1_n_n 10000 rfl rfl).symm k) = ix2 k j := funext fun a => Fin.ext (by
    match a with
    | ⟨0, _⟩ => exact (mmBig_rhs0 _ _).trans hk
    | ⟨1, _⟩ => exact mmBig_rhs1 _ _)
  rw [el, er]

/-- Row coordinate of the left operand's index: the result's row. -/
theorem mmSmall_lhs0 (i : S400x128.Idx) (q : dot_S400x128_S128x128_S400x128_1_0_0_1_n_n.contr.Idx) : (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
/-- Column coordinate of the left operand's index: the contraction position. -/
theorem mmSmall_lhs1 (i : S400x128.Idx) (q : dot_S400x128_S128x128_S400x128_1_0_0_1_n_n.contr.Idx) : (dot_S400x128_S128x128_S400x128_1_0_0_1_n_n.lhsIdx i q 1).val = (q ⟨0, by decide⟩).val :=
  dot_S400x128_S128x128_S400x128_1_0_0_1_n_n.lhsIdx_val_of_single rfl i q
/-- Row coordinate of the right operand's index: the contraction position. -/
theorem mmSmall_rhs0 (i : S400x128.Idx) (q : dot_S400x128_S128x128_S400x128_1_0_0_1_n_n.contr.Idx) : (dot_S400x128_S128x128_S400x128_1_0_0_1_n_n.rhsIdx i q 0).val = (q ⟨0, by decide⟩).val :=
  dot_S400x128_S128x128_S400x128_1_0_0_1_n_n.rhsIdx_val_of_single rfl i q
/-- Column coordinate of the right operand's index: the result's column. -/
theorem mmSmall_rhs1 (i : S400x128.Idx) (q : dot_S400x128_S128x128_S400x128_1_0_0_1_n_n.contr.Idx) : (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- A matrix product accumulated into zero, read at `(y, j)`: the sum over the 128 contraction positions of the left
    operand at `(y, k)` times the right operand at `(k, j)`. -/
theorem mmSmall_apply {φ₁ φ₂ : FTy} (l : FVec Ideal S400x128 φ₁) (r : FVec Ideal S128x128 φ₂) (y : Fin 400) (j : Fin 128) :
    matmul (F := Ideal) dot_S400x128_S128x128_S400x128_1_0_0_1_n_n none l r (constant (F := Ideal) S400x128 .f32 0x00000000#32) (ix2 y j)
      = ∑ k : Fin 128, l (ix2 y k) * r (ix2 k j) := by
  refine (Ideal.matmul_constant_zero_apply dot_S400x128_S128x128_S400x128_1_0_0_1_n_n none l r (ix2 y j)).trans ?_
  rw [← Equiv.sum_comp (contrEquiv1 dot_S400x128_S128x128_S400x128_1_0_0_1_n_n 128 rfl rfl).symm]
  refine Finset.sum_congr rfl fun k _ => ?_
  have hk := contrEquiv1_symm_val dot_S400x128_S128x128_S400x128_1_0_0_1_n_n 128 rfl rfl k
  have el : dot_S400x128_S128x128_S400x128_1_0_0_1_n_n.lhsIdx (ix2 y j) ((contrEquiv1 dot_S400x128_S128x128_S400x128_1_0_0_1_n_n 128 rfl rfl).symm k) = ix2 y k := funext fun a => Fin.ext (by
    match a with
    | ⟨0, _⟩ => exact mmSmall_lhs0 _ _
    | ⟨1, _⟩ => exact (mmSmall_lhs1 _ _).trans hk)
  have er : dot_S400x128_S128x128_S400x128_1_0_0_1_n_n.rhsIdx (ix2 y j) ((contrEquiv1 dot_S400x128_S128x128_S400x128_1_0_0_1_n_n 128 rfl rfl).symm k) = ix2 k j := funext fun a => Fin.ext (by
    match a with
    | ⟨0, _⟩ => exact (mmSmall_rhs0 _ _).trans hk
    | ⟨1, _⟩ => exact mmSmall_rhs1 _ _)
  rw [el, er]

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The first layer's block, entry `(y, j)`: the block's own features against the first weight half, plus the
    neighbour mean (the adjacency slab times all features, divided by the neighbour count plus `ε`) against the second
    weight half, plus the bias, clamped below at zero. The format changes and same-shape casts are the identity on
    extended reals. -/
theorem k0_pay1_apply (adjb : Vec Ideal S400x10000 .f32) (hall : Vec Ideal S10000x128 .f32) (nnb : Vec Ideal S400x1 .f32)
    (hb : Vec Ideal S400x128 .f32) (wa wb : Vec Ideal S128x128 .f32) (bias : Vec Ideal S1x128 .f32) (y : Fin 400) (j : Fin 128) :
    k0_pay1 (F := Ideal) adjb hall nnb hb wa wb bias (ix2 y j)
      = max (((∑ k : Fin 128, hb (ix2 y k) * wa (ix2 k j))
              + (∑ k : Fin 128, Ideal.div (∑ l : Fin 10000, adjb (ix2 y l) * hall (ix2 l k)) (nnb (ix2 y (0 : Fin 1)) + Cert.Spec.eps) * wb (ix2 k j)))
             + bias (ix2 (0 : Fin 1) j)) Cert.Spec.zero := by
  unfold k0_pay1
  simp only [shapeCast_self]
  rw [maximumf_apply, addf_apply, addf_apply, broadcast_apply, mmSmall_apply, mmSmall_apply,
    broadcastTo_1b_ab_apply]
  have hmean : ∀ k : Fin 128,
      divf (matmul (F := Ideal) dot_S400x10000_S10000x128_S400x128_1_0_0_1_n_n none (truncf .bf16 adjb bitsLt_bf16_f32)
          (truncf .bf16 hall bitsLt_bf16_f32) (constant (F := Ideal) S400x128 .f32 0x00000000#32))
        (broadcastTo S400x128 (addf nnb (broadcast S400x1 (FloatOps.ofBits (F := Ideal) .f32 0x33D6BF95#32))) broadcasts_S400x1_S400x128) (ix2 y k)
        = Ideal.div (∑ l : Fin 10000, adjb (ix2 y l) * hall (ix2 l k)) (nnb (ix2 y (0 : Fin 1)) + Cert.Spec.eps) := fun k => by
    rw [divf_apply, mmBig_apply, broadcastTo_a1_ab_apply, addf_apply, broadcast_apply]
    rfl
  simp only [hmean]
  rfl

/-- The second layer's block, entry `(y, j)`: the same arithmetic as the first layer's (its two further same-shape
    casts are the identity). -/
theorem k1_pay1_apply (adjb : Vec Ideal S400x10000 .f32) (hall : Vec Ideal S10000x128 .f32) (nnb : Vec Ideal S400x1 .f32)
    (hb : Vec Ideal S400x128 .f32) (wa wb : Vec Ideal S128x128 .f32) (bias : Vec Ideal S1x128 .f32) (y : Fin 400) (j : Fin 128) :
    k1_pay1 (F := Ideal) adjb hall nnb hb wa wb bias (ix2 y j)
      = max (((∑ k : Fin 128, hb (ix2 y k) * wa (ix2 k j))
              + (∑ k : Fin 128, Ideal.div (∑ l : Fin 10000, adjb (ix2 y l) * hall (ix2 l k)) (nnb (ix2 y (0 : Fin 1)) + Cert.Spec.eps) * wb (ix2 k j)))
             + bias (ix2 (0 : Fin 1) j)) Cert.Spec.zero := by
  unfold k1_pay1
  simp only [shapeCast_self]
  rw [maximumf_apply, addf_apply, addf_apply, broadcast_apply, mmSmall_apply, mmSmall_apply,
    broadcastTo_1b_ab_apply]
  have hmean : ∀ k : Fin 128,
      divf (matmul (F := Ideal) dot_S400x10000_S10000x128_S400x128_1_0_0_1_n_n none (truncf .bf16 adjb bitsLt_bf16_f32)
          (truncf .bf16 hall bitsLt_bf16_f32) (constant (F := Ideal) S400x128 .f32 0x00000000#32))
        (broadcastTo S400x128 (addf nnb (broadcast S400x1 (FloatOps.ofBits (F := Ideal) .f32 0x33D6BF95#32))) broadcasts_S400x1_S400x128) (ix2 y k)
        = Ideal.div (∑ l : Fin 10000, adjb (ix2 y l) * hall (ix2 l k)) (nnb (ix2 y (0 : Fin 1)) + Cert.Spec.eps) := fun k => by
    rw [divf_apply, mmBig_apply, broadcastTo_a1_ab_apply, addf_apply, broadcast_apply]
    rfl
  simp only [hmean]
  rfl

end Cert.KernelIdeal.Pay

end
-- ==== Proof.SpecBlock.lean ====
/-
  One layer as the kernel's windows see its operands: the neighbour counts as a column (10000 × 1), the weight as its
  two halves already transposed (each 128 × 128, entry (k, j) multiplying feature k into output j), the bias as a row
  (1 × 128). It is the layer of the specification with those re-laid operands; which re-laid operand is which part of
  the original is said where the host operations are read.
-/
import proofs.«122714_g32341103738939_cont_8to1_b_155_6_alg».proof.Proof.Spec

noncomputable section

open scoped BigOperators

namespace Cert.Spec

open Idealize.ShloMosaic Idealize.ShloMosaic.ValueIdx

/-- The neighbour counts as a column. -/
abbrev SNx1 : Shape := ⟨2, ![10000, 1]⟩
/-- One transposed half of a layer's weight. -/
abbrev SDxH : Shape := ⟨2, ![128, 128]⟩
/-- The bias as a row. -/
abbrev S1xH : Shape := ⟨2, ![1, 128]⟩

/-- One layer at entry `(r, j)` over the re-laid operands. -/
def klayer (h : SNxD.Idx → EReal) (adj : SNxN.Idx → EReal) (nncol : SNx1.Idx → EReal) (wa wb : SDxH.Idx → EReal) (brow : S1xH.Idx → EReal)
    (r : Fin 10000) (j : Fin 128) : EReal :=
  max (((∑ k : Fin 128, h (ix2 r k) * wa (ix2 k j))
        + (∑ k : Fin 128, Ideal.div (∑ l : Fin 10000, adj (ix2 r l) * h (ix2 l k)) (nncol (ix2 r (0 : Fin 1)) + eps) * wb (ix2 k j)))
       + brow (ix2 (0 : Fin 1) j)) zero

/-- With the re-laid operands read back to the originals it is the specification's layer. -/
theorem klayer_eq (h : SNxD.Idx → EReal) (adj : SNxN.Idx → EReal) (nn : SN.Idx → EReal) (W : SHx2D.Idx → EReal) (b : SH.Idx → EReal)
    (nncol : SNx1.Idx → EReal) (wa wb : SDxH.Idx → EReal) (brow : S1xH.Idx → EReal)
    (hn : ∀ r : Fin 10000, nncol (ix2 r (0 : Fin 1)) = nn (ix1 r))
    (ha : ∀ k j : Fin 128, wa (ix2 k j) = W (ix2 j (lo k))) (hb : ∀ k j : Fin 128, wb (ix2 k j) = W (ix2 j (hi k)))
    (hr : ∀ j : Fin 128, brow (ix2 (0 : Fin 1) j) = b (ix1 j)) (r : Fin 10000) (j : Fin 128) :
    klayer h adj nncol wa wb brow r j = layer h adj nn W b r j := by
  unfold klayer layer nbr
  rw [hn r, hr j]
  simp only [ha, hb]

end Cert.Spec

end
-- ==== Proof.Final0.lean ====
/-
  From the first layer's blocks to its whole output array.

  The grid has 25 points; point `t` computes rows `400 t … 400 t + 399` of the 10000 × 128 output. Entry `(y, j)` of
  its block depends on row `400 t + y` of the node features, of the adjacency and of the neighbour counts (the blocks
  that move with the point), and on arrays that are the same at every point: all node features, the two transposed
  weight halves and the bias row. So the block is rows `400 t …` of ONE function of the arrays — the layer, entry by
  entry — and since the 25 blocks cover every row (row `r` lies in block `r / 400`) the output array ends holding
  that function.
-/
import proofs.«122714_g32341103738939_cont_8to1_b_155_6_alg».proof.Proof.FrameR0
import proofs.«122714_g32341103738939_cont_8to1_b_155_6_alg».proof.Proof.Payload
import proofs.«122714_g32341103738939_cont_8to1_b_155_6_alg».proof.Proof.SpecBlock
import Idealize.ShloMosaic.Lib.Pipeline.Value
import Idealize.ShloMosaic.Lib.ValueIdx

noncomputable section

open scoped BigOperators

namespace Cert.KernelIdeal.Fin0

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the 25 grid points: the slab windows (own features, adjacency rows, neighbour counts, output)
    are at block row `t`, block column 0; the whole-array windows are always block (0, 0). -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0) :=
  (by decide +kernel : ∀ t : Fin grid0.N, _)

/-- The slab's own features at point `t`: rows `400 t …` of the node features. -/
theorem blk0_apply (c : Dev nD) (t : Fin cfg0.N) (y : Fin 400) (k : Fin 128) (r : Fin 10000) (hr : r.val = 400 * t.val + y.val) :
    (Fr0.iblk0 V c 0 t : Vec Ideal S400x128 .f32) (ix2 y k) = (V c main_arg0 : S10000x128.Idx → EReal) (ix2 r k) := by
  obtain ⟨⟨e0, e1⟩, -⟩ := index_facts t
  unfold Fr0.iblk0
  rw [View.read_apply]
  show (V c main_arg0 : S10000x128.Idx → EReal) _ = _
  congr 1
  funext a
  apply Fin.ext
  match a with
  | ⟨0, _⟩ => show win0_0.index t (0 : Fin 2) * 400 + 1 * y.val = r.val; rw [e0, hr]; omega
  | ⟨1, _⟩ => show win0_0.index t (1 : Fin 2) * 128 + 1 * k.val = k.val; rw [e1]; omega

/-- The slab's adjacency rows at point `t`: rows `400 t …` of the adjacency, all columns. -/
theorem blk1_apply (c : Dev nD) (t : Fin cfg0.N) (y : Fin 400) (l : Fin 10000) (r : Fin 10000) (hr : r.val = 400 * t.val + y.val) :
    (Fr0.iblk0 V c 1 t : Vec Ideal S400x10000 .f32) (ix2 y l) = (V c main_arg1 : S10000x10000.Idx → EReal) (ix2 r l) := by
  obtain ⟨-, ⟨e0, e1⟩, -⟩ := index_facts t
  unfold Fr0.iblk0
  rw [View.read_apply]
  show (V c main_arg1 : S10000x10000.Idx → EReal) _ = _
  congr 1
  funext a
  apply Fin.ext
  match a with
  | ⟨0, _⟩ => show win0_1.index t (0 : Fin 2) * 400 + 1 * y.val = r.val; rw [e0, hr]; omega
  | ⟨1, _⟩ => show win0_1.index t (1 : Fin 2) * 10000 + 1 * l.val = l.val; rw [e1]; omega

/-- All node features: the same whole array at every point. -/
theorem blk2_apply (c : Dev nD) (t : Fin cfg0.N) (l : Fin 10000) (k : Fin 128) :
    (Fr0.iblk0 V c 2 t : Vec Ideal S10000x128 .f32) (ix2 l k) = (V c main_arg0 : S10000x128.Idx → EReal) (ix2 l k) := by
  obtain ⟨-, -, ⟨e0, e1⟩, -⟩ := index_facts t
  unfold Fr0.iblk0
  rw [View.read_apply]
  show (V c main_arg0 : S10000x128.Idx → EReal) _ = _
  congr 1
  funext a
  apply Fin.ext
  match a with
  | ⟨0, _⟩ => show win0_2.index t (0 : Fin 2) * 10000 + 1 * l.val = l.val; rw [e0]; omega
  | ⟨1, _⟩ => show win0_2.index t (1 : Fin 2) * 128 + 1 * k.val = k.val; rw [e1]; omega

/-- The slab's neighbour counts at point `t`: rows `400 t …` of the count column. -/
theorem blk3_apply (c : Dev nD) (t : Fin cfg0.N) (y : Fin 400) (r : Fin 10000) (hr : r.val = 400 * t.val + y.val) :
    (Fr0.iblk0 V c 3 t : Vec Ideal S400x1 .f32) (ix2 y (0 : Fin 1)) = (V c main_call0_v0 : S10000x1.Idx → EReal) (ix2 r (0 : Fin 1)) := by
  obtain ⟨-, -, -, ⟨e0, e1⟩, -⟩ := index_facts t
  unfold Fr0.iblk0
  rw [View.read_apply]
  show (V c main_call0_v0 : S10000x1.Idx → EReal) _ = _
  congr 1
  funext a
  apply Fin.ext
  match a with
  | ⟨0, _⟩ => show win0_3.index t (0 : Fin 2) * 400 + 1 * y.val = r.val; rw [e0, hr]; omega
  | ⟨1, _⟩ => show win0_3.index t (1 : Fin 2) * 1 + 1 * 0 = 0; rw [e1]

/-- The first transposed weight half: the same whole array at every point. -/
theorem blk4_apply (c : Dev nD) (t : Fin cfg0.N) (k j : Fin 128) :
    (Fr0.iblk0 V c 4 t : Vec Ideal S128x128 .f32) (ix2 k j) = (V c main_call0_v2 : S128x128.Idx → EReal) (ix2 k j) := by
  obtain ⟨-, -, -, -, ⟨e0, e1⟩, -⟩ := index_facts t
  unfold Fr0.iblk0
  rw [View.read_apply]
  show (V c main_call0_v2 : S128x128.Idx → EReal) _ = _
  congr 1
  funext a
  apply Fin.ext
  match a with
  | ⟨0, _⟩ => show win0_4.index t (0 : Fin 2) * 128 + 1 * k.val = k.val; rw [e0]; omega
  | ⟨1, _⟩ => show win0_4.index t (1 : Fin 2) * 128 + 1 * j.val = j.val; rw [e1]; omega

/-- The second transposed weight half: the same whole array at every point. -/
theorem blk5_apply (c : Dev nD) (t : Fin cfg0.N) (k j : Fin 128) :
    (Fr0.iblk0 V c 5 t : Vec Ideal S128x128 .f32) (ix2 k j) = (V c main_call0_v4 : S128x128.Idx → EReal) (ix2 k j) := by
  obtain ⟨-, -, -, -, -, ⟨e0, e1⟩, -⟩ := index_facts t
  unfold Fr0.iblk0
  rw [View.read_apply]
  show (V c main_call0_v4 : S128x128.Idx → EReal) _ = _
  congr 1
  funext a
  apply Fin.ext
  match a with
  | ⟨0, _⟩ => show win0_5.index t (0 : Fin 2) * 128 + 1 * k.val = k.val; rw [e0]; omega
  | ⟨1, _⟩ => show win0_5.index t (1 : Fin 2) * 128 + 1 * j.val = j.val; rw [e1]; omega

/-- The bias row: the same whole array at every point. -/
theorem blk6_apply (c : Dev nD) (t : Fin cfg0.N) (j : Fin 128) :
    (Fr0.iblk0 V c 6 t : Vec Ideal S1x128 .f32) (ix2 (0 : Fin 1) j) = (V c main_call0_v9 : S1x128.Idx → EReal) (ix2 (0 : Fin 1) j) := by
  obtain ⟨-, -, -, -, -, -, ⟨e0, e1⟩, -⟩ := index_facts t
  unfold Fr0.iblk0
  rw [View.read_apply]
  show (V c main_call0_v9 : S1x128.Idx → EReal) _ = _
  congr 1
  funext a
  apply Fin.ext
  match a with
  | ⟨0, _⟩ => show win0_6.index t (0 : Fin 2) * 1 + 1 * 0 = 0; rw [e0]
  | ⟨1, _⟩ => show win0_6.index t (1 : Fin 2) * 128 + 1 * j.val = j.val; rw [e1]; omega

/-- What the output array ends holding: the layer of the arrays the region finds. -/
def G (c : Dev nD) : S10000x128.Idx → EReal := fun i =>
  Cert.Spec.klayer (V c main_arg0) (V c main_arg1) (V c main_call0_v0) (V c main_call0_v2) (V c main_call0_v4) (V c main_call0_v9)
    ⟨(i 0).val, idx2_lt0 i⟩ ⟨(i 1).val, idx2_lt1 i⟩

/-- The body's block at point `t`, entry `(y, j)`, is the layer at row `400 t + y`: the block's own features,
    adjacency rows and neighbour count are those of that row; everything else is a whole array. -/
theorem block_apply (c : Dev nD) (t : Fin cfg0.N) (y : Fin 400) (j : Fin 128) (r : Fin 10000) (hr : r.val = 400 * t.val + y.val) :
    k0_pay1 (F := Ideal) (Fr0.iblk0 V c 1 t) (Fr0.iblk0 V c 2 t) (Fr0.iblk0 V c 3 t) (Fr0.iblk0 V c 0 t) (Fr0.iblk0 V c 4 t) (Fr0.iblk0 V c 5 t) (Fr0.iblk0 V c 6 t) (ix2 y j)
      = Cert.Spec.klayer (V c main_arg0) (V c main_arg1) (V c main_call0_v0) (V c main_call0_v2) (V c main_call0_v4) (V c main_call0_v9) r j := by
  rw [Pay.k0_pay1_apply]
  unfold Cert.Spec.klayer
  rw [blk3_apply V c t y r hr, blk6_apply V c t j]
  simp only [blk0_apply V c t y _ r hr, blk1_apply V c t y _ r hr, blk2_apply V c t, blk4_apply V c t, blk5_apply V c t]

/-- What point `t` writes back is block `t` of `G`. -/
theorem flushed_eq (c : Dev nD) (t : Fin cfg0.N) :
    (Fr0.dat0 (F := Ideal) V c).flushed 7 t = ((cfg0.win 7).blk t).view.read (Elt Ideal) (G V c) := by
  show (cfg0.win 7).cut (grid0.coords t) ((Fr0.dat0 (F := Ideal) V c).after 7 t) = _
  rw [Fr0.after0_7]
  unfold Fr0.out0_7
  rw [View.canon_unit_zero zero_offsets]
  simp only [View.ld_unit_zero (S := S400x128) zero_offsets, View.ld_unit_zero (S := S400x10000) zero_offsets,
    View.ld_unit_zero (S := S10000x128) zero_offsets, View.ld_unit_zero (S := S400x1) zero_offsets,
    View.ld_unit_zero (S := S128x128) zero_offsets, View.ld_unit_zero (S := S1x128) zero_offsets]
  obtain ⟨-, -, -, -, -, -, -, ⟨e0, e1⟩⟩ := index_facts t
  have hN : t.val < 25 := t.isLt
  funext i
  obtain ⟨y, j, rfl⟩ : ∃ (y : Fin 400) (j : Fin 128), i = ix2 y j := ⟨i 0, i 1, eq_ix2 i⟩
  refine (block_apply V c t y j ⟨400 * t.val + y.val, by have := y.isLt; omega⟩ rfl).trans ?_
  rw [View.read_apply]
  show _ = G V c (((cfg0.win 7).blk t).view.emb (ix2 y j))
  unfold G
  congr 1
  · apply Fin.ext
    show 400 * t.val + y.val = win0_7.index t (0 : Fin 2) * 400 + 1 * y.val
    rw [e0]; omega
  · apply Fin.ext
    show j.val = win0_7.index t (1 : Fin 2) * 128 + 1 * j.val
    rw [e1]; omega

/-- An index of the array is in point `t`'s block iff each coordinate is in the block's range on its axis. -/
theorem mem_blk (t : Fin cfg0.N) (i : S10000x128.Idx) :
    i ∈ ((cfg0.win 7).blk t).view.set ↔ ∀ a : Fin 2, win0_7.index t a * S400x128.size a ≤ (i a).val ∧ (i a).val < win0_7.index t a * S400x128.size a + S400x128.size a := by
  show i ∈ ((View.whole main_call0_v10).slice (win0_7.rect t)).set ↔ _
  rw [View.set_slice_whole, Rect.mem_set_unit]
  exact Iff.rfl

/-- Every row is in some point's block: row `r` in that of point `r / 400`. -/
theorem cover (i : S10000x128.Idx) : ∃ t : Fin cfg0.N, (cfg0.win 7).flush t = true ∧ i ∈ ((cfg0.win 7).blk t).view.set := by
  have hi0 : (i 0).val < 10000 := idx2_lt0 i
  have hi1 : (i 1).val < 128 := idx2_lt1 i
  have ht : (i 0).val / 400 < 25 := by omega
  refine ⟨⟨(i 0).val / 400, ht⟩, flush0_7 _, ?_⟩
  obtain ⟨-, -, -, -, -, -, -, ⟨e0, e1⟩⟩ := index_facts ⟨(i 0).val / 400, ht⟩
  rw [mem_blk]
  intro a
  match a with
  | ⟨0, _⟩ =>
    show win0_7.index ⟨(i 0).val / 400, ht⟩ (0 : Fin 2) * 400 ≤ (i 0).val ∧ (i 0).val < win0_7.index ⟨(i 0).val / 400, ht⟩ (0 : Fin 2) * 400 + 400
    rw [e0]; show (i 0).val / 400 * 400 ≤ (i 0).val ∧ (i 0).val < (i 0).val / 400 * 400 + 400; omega
  | ⟨1, _⟩ =>
    show win0_7.index ⟨(i 0).val / 400, ht⟩ (1 : Fin 2) * 128 ≤ (i 1).val ∧ (i 1).val < win0_7.index ⟨(i 0).val / 400, ht⟩ (1 : Fin 2) * 128 + 128
    rw [e1]; omega

/-- The output array after the region: the layer of the arrays the region finds, entry by entry. -/
theorem final0 (c : Dev nD) :
    ((Fr0.dat0 (F := Ideal) V c).arrAt 7 cfg0.N : S10000x128.Idx → EReal)
      = fun i => Cert.Spec.klayer (V c main_arg0) (V c main_arg1) (V c main_call0_v0) (V c main_call0_v2) (V c main_call0_v4) (V c main_call0_v9)
                   ⟨(i 0).val, idx2_lt0 i⟩ ⟨(i 1).val, idx2_lt1 i⟩ :=
  (Fr0.dat0 (F := Ideal) V c).arrAt_eq_of_cover 7 (G V c) (fun t _ => flushed_eq V c t) cover

end Cert.KernelIdeal.Fin0

end
-- ==== Proof.Final1.lean ====
/-
  From the second layer's blocks to the whole result array.

  The grid has 25 points; point `t` computes rows `400 t … 400 t + 399` of the 10000 × 256 result. Its block is two
  pieces side by side: columns 0 … 127 are the layer over the FIRST layer's output — entry `(y, j)` depending on row
  `400 t + y` of that output, of the adjacency and of the neighbour counts, and on the whole first-layer output, the
  two transposed weight halves and the bias row —, columns 128 … 255 are rows `400 t …` of the input features. Both
  pieces are the rows `400 t …` of ONE function of the arrays, and since the 25 blocks cover every row (row `r` lies
  in block `r / 400`) the result array ends holding that function.
-/
import proofs.«122714_g32341103738939_cont_8to1_b_155_6_alg».proof.Proof.FrameR1
import proofs.«122714_g32341103738939_cont_8to1_b_155_6_alg».proof.Proof.Payload
import proofs.«122714_g32341103738939_cont_8to1_b_155_6_alg».proof.Proof.SpecBlock
import Idealize.ShloMosaic.Lib.Pipeline.Value
import Idealize.ShloMosaic.Lib.ValueIdx

noncomputable section

open scoped BigOperators

namespace Cert.KernelIdeal.Fin1

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the 25 grid points: the slab windows (first-layer features, adjacency rows, neighbour counts,
    input features, output) are at block row `t`, block column 0; the whole-array windows are always block (0, 0). -/
theorem index_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = t.val ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0)
    ∧ (win1_8.index t (0 : Fin 2) = t.val ∧ win1_8.index t (1 : Fin 2) = 0) :=
  (by decide +kernel : ∀ t : Fin grid1.N, _)

/-- The slab's first-layer features at point `t`: rows `400 t …` of the first layer's output. -/
theorem blk0_apply (c : Dev nD) (t : Fin cfg1.N) (y : Fin 400) (k : Fin 128) (r : Fin 10000) (hr : r.val = 400 * t.val + y.val) :
    (Fr1.iblk1 V c 0 t : Vec Ideal S400x128 .f32) (ix2 y k) = (V c main_call0_v10 : S10000x128.Idx → EReal) (ix2 r k) := by
  obtain ⟨e0, e1⟩ := (index_facts t).1
  unfold Fr1.iblk1
  rw [View.read_apply]
  show (V c main_call0_v10 : S10000x128.Idx → EReal) _ = _
  congr 1
  funext a
  apply Fin.ext
  match a with
  | ⟨0, _⟩ => show win1_0.index t (0 : Fin 2) * 400 + 1 * y.val = r.val; rw [e0, hr]; omega
  | ⟨1, _⟩ => show win1_0.index t (1 : Fin 2) * 128 + 1 * k.val = k.val; rw [e1]; omega

/-- The slab's adjacency rows at point `t`: rows `400 t …` of the adjacency, all columns. -/
theorem blk1_apply (c : Dev nD) (t : Fin cfg1.N) (y : Fin 400) (l : Fin 10000) (r : Fin 10000) (hr : r.val = 400 * t.val + y.val) :
    (Fr1.iblk1 V c 1 t : Vec Ideal S400x10000 .f32) (ix2 y l) = (V c main_arg1 : S10000x10000.Idx → EReal) (ix2 r l) := by
  obtain ⟨e0, e1⟩ := (index_facts t).2.1
  unfold Fr1.iblk1
  rw [View.read_apply]
  show (V c main_arg1 : S10000x10000.Idx → EReal) _ = _
  congr 1
  funext a
  apply Fin.ext
  match a with
  | ⟨0, _⟩ => show win1_1.index t (0 : Fin 2) * 400 + 1 * y.val = r.val; rw [e0, hr]; omega
  | ⟨1, _⟩ => show win1_1.index t (1 : Fin 2) * 10000 + 1 * l.val = l.val; rw [e1]; omega

/-- All first-layer features: the same whole array at every point. -/
theorem blk2_apply (c : Dev nD) (t : Fin cfg1.N) (l : Fin 10000) (k : Fin 128) :
    (Fr1.iblk1 V c 2 t : Vec Ideal S10000x128 .f32) (ix2 l k) = (V c main_call0_v10 : S10000x128.Idx → EReal) (ix2 l k) := by
  obtain ⟨e0, e1⟩ := (index_facts t).2.2.1
  unfold Fr1.iblk1
  rw [View.read_apply]
  show (V c main_call0_v10 : S10000x128.Idx → EReal) _ = _
  congr 1
  funext a
  apply Fin.ext
  match a with
  | ⟨0, _⟩ => show win1_2.index t (0 : Fin 2) * 10000 + 1 * l.val = l.val; rw [e0]; omega
  | ⟨1, _⟩ => show win1_2.index t (1 : Fin 2) * 128 + 1 * k.val = k.val; rw [e1]; omega

/-- The slab's neighbour counts at point `t`: rows `400 t …` of the count column. -/
theorem blk3_apply (c : Dev nD) (t : Fin cfg1.N) (y : Fin 400) (r : Fin 10000) (hr : r.val = 400 * t.val + y.val) :
    (Fr1.iblk1 V c 3 t : Vec Ideal S400x1 .f32) (ix2 y (0 : Fin 1)) = (V c main_call0_v0 : S10000x1.Idx → EReal) (ix2 r (0 : Fin 1)) := by
  obtain ⟨e0, e1⟩ := (index_facts t).2.2.2.1
  unfold Fr1.iblk1
  rw [View.read_apply]
  show (V c main_call0_v0 : S10000x1.Idx → EReal) _ = _
  congr 1
  funext a
  apply Fin.ext
  match a with
  | ⟨0, _⟩ => show win1_3.index t (0 : Fin 2) * 400 + 1 * y.val = r.val; rw [e0, hr]; omega
  | ⟨1, _⟩ => show win1_3.index t (1 : Fin 2) * 1 + 1 * 0 = 0; rw [e1]

/-- The first transposed weight half: the same whole array at every point. -/
theorem blk4_apply (c : Dev nD) (t : Fin cfg1.N) (k : Fin 128) (j : Fin 128) :
    (Fr1.iblk1 V c 4 t : Vec Ideal S128x128 .f32) (ix2 k j) = (V c main_call0_v6 : S128x128.Idx → EReal) (ix2 k j) := by
  obtain ⟨e0, e1⟩ := (index_facts t).2.2.2.2.1
  unfold Fr1.iblk1
  rw [View.read_apply]
  show (V c main_call0_v6 : S128x128.Idx → EReal) _ = _
  congr 1
  funext a
  apply Fin.ext
  match a with
  | ⟨0, _⟩ => show win1_4.index t (0 : Fin 2) * 128 + 1 * k.val = k.val; rw [e0]; omega
  | ⟨1, _⟩ => show win1_4.index t (1 : Fin 2) * 128 + 1 * j.val = j.val; rw [e1]; omega

/-- The second transposed weight half: the same whole array at every point. -/
theorem blk5_apply (c : Dev nD) (t : Fin cfg1.N) (k : Fin 128) (j : Fin 128) :
    (Fr1.iblk1 V c 5 t : Vec Ideal S128x128 .f32) (ix2 k j) = (V c main_call0_v8 : S128x128.Idx → EReal) (ix2 k j) := by
  obtain ⟨e0, e1⟩ := (index_facts t).2.2.2.2.2.1
  unfold Fr1.iblk1
  rw [View.read_apply]
  show (V c main_call0_v8 : S128x128.Idx → EReal) _ = _
  congr 1
  funext a
  apply Fin.ext
  match a with
  | ⟨0, _⟩ => show win1_5.index t (0 : Fin 2) * 128 + 1 * k.val = k.val; rw [e0]; omega
  | ⟨1, _⟩ => show win1_5.index t (1 : Fin 2) * 128 + 1 * j.val = j.val; rw [e1]; omega

/-- The bias row: the same whole array at every point. -/
theorem blk6_apply (c : Dev nD) (t : Fin cfg1.N) (j : Fin 128) :
    (Fr1.iblk1 V c 6 t : Vec Ideal S1x128 .f32) (ix2 (0 : Fin 1) j) = (V c main_call0_v11 : S1x128.Idx → EReal) (ix2 (0 : Fin 1) j) := by
  obtain ⟨e0, e1⟩ := (index_facts t).2.2.2.2.2.2.1
  unfold Fr1.iblk1
  rw [View.read_apply]
  show (V c main_call0_v11 : S1x128.Idx → EReal) _ = _
  congr 1
  funext a
  apply Fin.ext
  match a with
  | ⟨0, _⟩ => show win1_6.index t (0 : Fin 2) * 1 + 1 * 0 = 0; rw [e0]
  | ⟨1, _⟩ => show win1_6.index t (1 : Fin 2) * 128 + 1 * j.val = j.val; rw [e1]; omega

/-- The slab's input features at point `t`: rows `400 t …` of the input features. -/
theorem blk7_apply (c : Dev nD) (t : Fin cfg1.N) (y : Fin 400) (k : Fin 128) (r : Fin 10000) (hr : r.val = 400 * t.val + y.val) :
    (Fr1.iblk1 V c 7 t : Vec Ideal S400x128 .f32) (ix2 y k) = (V c main_arg0 : S10000x128.Idx → EReal) (ix2 r k) := by
  obtain ⟨e0, e1⟩ := (index_facts t).2.2.2.2.2.2.2.1
  unfold Fr1.iblk1
  rw [View.read_apply]
  show (V c main_arg0 : S10000x128.Idx → EReal) _ = _
  congr 1
  funext a
  apply Fin.ext
  match a with
  | ⟨0, _⟩ => show win1_7.index t (0 : Fin 2) * 400 + 1 * y.val = r.val; rw [e0, hr]; omega
  | ⟨1, _⟩ => show win1_7.index t (1 : Fin 2) * 128 + 1 * k.val = k.val; rw [e1]; omega

/-- The second layer's block at point `t`, entry `(y, j)`, is the layer at row `400 t + y` over the first layer's
    output. -/
theorem block_apply (c : Dev nD) (t : Fin cfg1.N) (y : Fin 400) (j : Fin 128) (r : Fin 10000) (hr : r.val = 400 * t.val + y.val) :
    k1_pay1 (F := Ideal) (Fr1.iblk1 V c 1 t) (Fr1.iblk1 V c 2 t) (Fr1.iblk1 V c 3 t) (Fr1.iblk1 V c 0 t) (Fr1.iblk1 V c 4 t) (Fr1.iblk1 V c 5 t) (Fr1.iblk1 V c 6 t) (ix2 y j)
      = Cert.Spec.klayer (V c main_call0_v10) (V c main_arg1) (V c main_call0_v0) (V c main_call0_v6) (V c main_call0_v8) (V c main_call0_v11) r j := by
  rw [Pay.k1_pay1_apply]
  unfold Cert.Spec.klayer
  rw [blk3_apply V c t y r hr, blk6_apply V c t j]
  simp only [blk0_apply V c t y _ r hr, blk1_apply V c t y _ r hr, blk2_apply V c t, blk4_apply V c t, blk5_apply V c t]

/-- What the output array ends holding: in columns 0 … 127 the layer over the first layer's output, in columns
    128 … 255 the input features. -/
def G (c : Dev nD) : S10000x256.Idx → EReal := fun i =>
  if hlt : (i 1).val < 128
  then Cert.Spec.klayer (V c main_call0_v10) (V c main_arg1) (V c main_call0_v0) (V c main_call0_v6) (V c main_call0_v8) (V c main_call0_v11) ⟨(i 0).val, idx2_lt0 i⟩ ⟨(i 1).val, hlt⟩
  else V c main_arg0 (ix2 ⟨(i 0).val, idx2_lt0 i⟩ ⟨(i 1).val - 128, by have := idx2_lt1 i; omega⟩)

/-- `G` at row `r`, column `j < 128`. -/
theorem G_lo (c : Dev nD) (i : S10000x256.Idx) (r : Fin 10000) (j : Fin 128) (h0 : (i 0).val = r.val) (h1 : (i 1).val = j.val) :
    G V c i = Cert.Spec.klayer (V c main_call0_v10) (V c main_arg1) (V c main_call0_v0) (V c main_call0_v6) (V c main_call0_v8) (V c main_call0_v11) r j := by
  have hj := j.isLt
  unfold G
  rw [dif_pos (show (i 1).val < 128 by omega)]
  congr 1 <;> exact Fin.ext (by assumption)

/-- `G` at row `r`, column `128 + j`. -/
theorem G_hi (c : Dev nD) (i : S10000x256.Idx) (r : Fin 10000) (j : Fin 128) (h0 : (i 0).val = r.val) (h1 : (i 1).val = 128 + j.val) :
    G V c i = (V c main_arg0 : S10000x128.Idx → EReal) (ix2 r j) := by
  unfold G
  rw [dif_neg (show ¬(i 1).val < 128 by omega)]
  have e0 : (⟨(i 0).val, idx2_lt0 i⟩ : Fin 10000) = r := Fin.ext h0
  have e1 : (⟨(i 1).val - 128, by have := idx2_lt1 i; omega⟩ : Fin 128) = j := Fin.ext (by show (i 1).val - 128 = j.val; omega)
  rw [e0, e1]

/-- The store into columns 128 … 255: entry `(y, j)` of the slab's input features lands at row `400 t + y`, column
    `128 + j` of the array, where `G` is the input features. -/
theorem hi_piece (c : Dev nD) (t : Fin cfg1.N) (y : Fin 400) (j : Fin 128) :
    (Fr1.iblk1 V c 7 t : Vec Ideal S400x128 .f32) (ix2 y j) = G V c (((cfg1.win 8).blk t).view.emb (Fr1.rHi.emb (ix2 y j))) := by
  obtain ⟨e0, e1⟩ := (index_facts t).2.2.2.2.2.2.2.2
  have hN : t.val < 25 := t.isLt
  have hy := y.isLt
  rw [blk7_apply V c t y j ⟨400 * t.val + y.val, by omega⟩ rfl]
  refine (G_hi V c _ _ j ?_ ?_).symm
  · show win1_8.index t (0 : Fin 2) * 400 + 1 * (0 + 1 * y.val) = 400 * t.val + y.val
    rw [e0]; omega
  · show win1_8.index t (1 : Fin 2) * 256 + 1 * (128 + 1 * j.val) = 128 + j.val
    rw [e1]; omega

/-- The store into columns 0 … 127: entry `(y, j)` of the layer's block lands at row `400 t + y`, column `j`. -/
theorem lo_piece (c : Dev nD) (t : Fin cfg1.N) (y : Fin 400) (j : Fin 128) :
    k1_pay1 (F := Ideal) (Fr1.iblk1 V c 1 t) (Fr1.iblk1 V c 2 t) (Fr1.iblk1 V c 3 t) (Fr1.iblk1 V c 0 t) (Fr1.iblk1 V c 4 t) (Fr1.iblk1 V c 5 t) (Fr1.iblk1 V c 6 t) (ix2 y j)
      = G V c (((cfg1.win 8).blk t).view.emb (Fr1.rLo.emb (ix2 y j))) := by
  obtain ⟨e0, e1⟩ := (index_facts t).2.2.2.2.2.2.2.2
  have hN : t.val < 25 := t.isLt
  have hy := y.isLt
  rw [block_apply V c t y j ⟨400 * t.val + y.val, by omega⟩ rfl]
  refine (G_lo V c _ _ j ?_ ?_).symm
  · show win1_8.index t (0 : Fin 2) * 400 + 1 * (0 + 1 * y.val) = 400 * t.val + y.val
    rw [e0]; omega
  · show win1_8.index t (1 : Fin 2) * 256 + 1 * (0 + 1 * j.val) = j.val
    rw [e1]; omega

/-- What point `t` writes back is block `t` of `G`: each of the body's two stores is the part of `G` its columns name. -/
theorem flushed_eq (c : Dev nD) (t : Fin cfg1.N) :
    (Fr1.dat1 (F := Ideal) V c).flushed 8 t = ((cfg1.win 8).blk t).view.read (Elt Ideal) (G V c) := by
  show (cfg1.win 8).cut (grid1.coords t) ((Fr1.dat1 (F := Ideal) V c).after 8 t) = _
  rw [Fr1.after1_8]
  unfold Fr1.out1_8
  simp only [View.ld_unit_zero (S := S400x128) zero_offsets, View.ld_unit_zero (S := S400x10000) zero_offsets,
    View.ld_unit_zero (S := S10000x128) zero_offsets, View.ld_unit_zero (S := S400x1) zero_offsets,
    View.ld_unit_zero (S := S128x128) zero_offsets, View.ld_unit_zero (S := S1x128) zero_offsets]
  funext i
  refine View.canon_apply_of_pieces (Val := Elt Ideal) (S := S400x256) (e := .f32) (fun i' : S400x256.Idx => G V c (((cfg1.win 8).blk t).view.emb i')) _ ?_ i (Fr1.cover1_8 _ _ i)
  intro p hp x
  rcases List.mem_cons.mp hp with rfl | hp
  · obtain ⟨y, j, rfl⟩ : ∃ (y : Fin 400) (j : Fin 128), x = ix2 y j := ⟨x 0, x 1, eq_ix2 x⟩
    exact hi_piece V c t y j
  · obtain rfl := List.mem_singleton.mp hp
    obtain ⟨y, j, rfl⟩ : ∃ (y : Fin 400) (j : Fin 128), x = ix2 y j := ⟨x 0, x 1, eq_ix2 x⟩
    exact lo_piece V c t y j

/-- An index of the array is in point `t`'s block iff each coordinate is in the block's range on its axis. -/
theorem mem_blk (t : Fin cfg1.N) (i : S10000x256.Idx) :
    i ∈ ((cfg1.win 8).blk t).view.set ↔ ∀ a : Fin 2, win1_8.index t a * S400x256.size a ≤ (i a).val ∧ (i a).val < win1_8.index t a * S400x256.size a + S400x256.size a := by
  show i ∈ ((View.whole main_v0).slice (win1_8.rect t)).set ↔ _
  rw [View.set_slice_whole, Rect.mem_set_unit]
  exact Iff.rfl

/-- Every row is in some point's block: row `r` in that of point `r / 400`. -/
theorem cover (i : S10000x256.Idx) : ∃ t : Fin cfg1.N, (cfg1.win 8).flush t = true ∧ i ∈ ((cfg1.win 8).blk t).view.set := by
  have hi0 : (i 0).val < 10000 := idx2_lt0 i
  have hi1 : (i 1).val < 256 := idx2_lt1 i
  have ht : (i 0).val / 400 < 25 := by omega
  refine ⟨⟨(i 0).val / 400, ht⟩, flush1_8 _, ?_⟩
  obtain ⟨e0, e1⟩ := (index_facts ⟨(i 0).val / 400, ht⟩).2.2.2.2.2.2.2.2
  rw [mem_blk]
  intro a
  match a with
  | ⟨0, _⟩ =>
    show win1_8.index ⟨(i 0).val / 400, ht⟩ (0 : Fin 2) * 400 ≤ (i 0).val ∧ (i 0).val < win1_8.index ⟨(i 0).val / 400, ht⟩ (0 : Fin 2) * 400 + 400
    rw [e0]; show (i 0).val / 400 * 400 ≤ (i 0).val ∧ (i 0).val < (i 0).val / 400 * 400 + 400; omega
  | ⟨1, _⟩ =>
    show win1_8.index ⟨(i 0).val / 400, ht⟩ (1 : Fin 2) * 256 ≤ (i 1).val ∧ (i 1).val < win1_8.index ⟨(i 0).val / 400, ht⟩ (1 : Fin 2) * 256 + 256
    rw [e1]; omega

/-- The result array after the region: the second layer in columns 0 … 127, the input features in columns 128 … 255. -/
theorem final1 (c : Dev nD) :
    ((Fr1.dat1 (F := Ideal) V c).arrAt 8 cfg1.N : S10000x256.Idx → EReal)
      = fun i => if hlt : (i 1).val < 128
          then Cert.Spec.klayer (V c main_call0_v10) (V c main_arg1) (V c main_call0_v0) (V c main_call0_v6) (V c main_call0_v8) (V c main_call0_v11) ⟨(i 0).val, idx2_lt0 i⟩ ⟨(i 1).val, hlt⟩
          else V c main_arg0 (ix2 ⟨(i 0).val, idx2_lt0 i⟩ ⟨(i 1).val - 128, by have := idx2_lt1 i; omega⟩) :=
  (Fr1.dat1 (F := Ideal) V c).arrAt_eq_of_cover 8 (G V c) (fun t _ => flushed_eq V c t) cover

end Cert.KernelIdeal.Fin1

end
-- ==== Proof.KernelValue.lean ====
/-
  What the idealized kernel's result buffer holds after the run, as a function of the launch memory.

  Region 0's output is, entry by entry, one layer over the arrays the region finds; those arrays are the arguments
  re-laid by the host operations before it (the neighbour counts as a column, each half of the first weight
  transposed, the first bias as a row), so it is the specification's layer of the arguments: the first layer's
  features. Region 1's output has, in its columns 0 … 127, one layer over the arrays IT finds — the first layer's
  features where region 0 left them, the second weight's halves and the second bias re-laid likewise —, the
  specification's second layer, and in its columns 128 … 255 the input features: the specified result.
-/
import proofs.«122714_g32341103738939_cont_8to1_b_155_6_alg».proof.Proof.FrameRun
import proofs.«122714_g32341103738939_cont_8to1_b_155_6_alg».proof.Proof.HostGlue
import proofs.«122714_g32341103738939_cont_8to1_b_155_6_alg».proof.Proof.Final0
import proofs.«122714_g32341103738939_cont_8to1_b_155_6_alg».proof.Proof.Final1
import proofs.«122714_g32341103738939_cont_8to1_b_155_6_alg».proof.Proof.SpecBlock

noncomputable section

open scoped BigOperators

namespace Cert.KernelIdeal.Val

open Cert.KernelIdeal Cert.KernelIdeal.Gen Cert.KernelIdeal.Run
open Idealize.ShloMosaic Idealize.ShloMosaic.TcCoe Idealize.ShloMosaic.ValueIdx Idealize.SL.Sem

variable (m : (ℓ : Loc nD τ sig) → Buf (Elt Ideal) ℓ) (c : Dev nD)

/-- The first layer's features, where region 0 leaves them, are the specification's first layer of the arguments. -/
theorem layer1 :
    (o2 m c : S10000x128.Idx → EReal)
      = Cert.Spec.layerArr (m ((c : Thread nD τ).loc main_arg0)) (m ((c : Thread nD τ).loc main_arg1)) (m ((c : Thread nD τ).loc main_arg2))
          (m ((c : Thread nD τ).loc main_arg3)) (m ((c : Thread nD τ).loc main_arg4)) := by
  unfold o2
  rw [Fin0.final0 (V1r m) c]
  funext i
  show Cert.Spec.klayer (V1 m c main_arg0) (V1 m c main_arg1) (V1 m c main_call0_v0) (V1 m c main_call0_v2) (V1 m c main_call0_v4) (V1 m c main_call0_v9)
      ⟨(i 0).val, idx2_lt0 i⟩ ⟨(i 1).val, idx2_lt1 i⟩ = _
  rw [Glue.V1_arg0, Glue.V1_arg1]
  exact Cert.Spec.klayer_eq _ _ _ _ _ _ _ _ _ (Glue.glue_nn m c) (Glue.glue_w1a m c) (Glue.glue_w1b m c) (Glue.glue_b1 m c) _ _

/-- The result buffer after the run is the specified function of the arguments. -/
theorem result :
    (o4 m c : S10000x256.Idx → EReal)
      = Cert.Spec.out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) := by
  unfold o4
  rw [Fin1.final1 (V3r m) c]
  -- region 1's entry contents, buffer by buffer
  have e10 : (W3 m c main_call0_v10 : S10000x128.Idx → EReal) = Cert.Spec.layerArr (m ((c : Thread nD τ).loc main_arg0)) (m ((c : Thread nD τ).loc main_arg1))
      (m ((c : Thread nD τ).loc main_arg2)) (m ((c : Thread nD τ).loc main_arg3)) (m ((c : Thread nD τ).loc main_arg4)) := by
    rw [← V3_eq, Glue.V3_v10, outs_v10]; exact layer1 m c
  have e1 : W3 m c main_arg1 = m ((c : Thread nD τ).loc main_arg1) := by rw [← V3_eq]; exact Glue.V3_arg1 m (outs m) c
  have e0 : W3 m c main_arg0 = m ((c : Thread nD τ).loc main_arg0) := by rw [← V3_eq]; exact Glue.V3_arg0 m (outs m) c
  have ev0 : W3 m c main_call0_v0 = V1 m c main_call0_v0 := by rw [← V3_eq]; exact Glue.V3_v0 m (outs m) c
  have ev6 : W3 m c main_call0_v6 = V1 m c main_call0_v6 := by rw [← V3_eq]; exact Glue.V3_v6 m (outs m) c
  have ev8 : W3 m c main_call0_v8 = V1 m c main_call0_v8 := by rw [← V3_eq]; exact Glue.V3_v8 m (outs m) c
  have eb : ∀ j : Fin 128, (W3 m c main_call0_v11 : S1x128.Idx → EReal) (ix2 (0 : Fin 1) j) = m ((c : Thread nD τ).loc main_arg6) (ix1 j) := fun j => by
    rw [← V3_eq]; exact Glue.glue_b2 m (outs m) c j
  funext i
  unfold Cert.Spec.out
  show (if hlt : (i 1).val < 128
      then Cert.Spec.klayer (W3 m c main_call0_v10) (W3 m c main_arg1) (W3 m c main_call0_v0) (W3 m c main_call0_v6) (W3 m c main_call0_v8) (W3 m c main_call0_v11) ⟨(i 0).val, idx2_lt0 i⟩ ⟨(i 1).val, hlt⟩
      else W3 m c main_arg0 (ix2 ⟨(i 0).val, idx2_lt0 i⟩ ⟨(i 1).val - 128, by have := idx2_lt1 i; omega⟩)) = _
  by_cases hlt : (i 1).val < 128
  · rw [dif_pos hlt, dif_pos hlt, e10, e1, ev0, ev6, ev8]
    exact Cert.Spec.klayer_eq _ _ _ _ _ _ _ _ _ (Glue.glue_nn m c) (Glue.glue_w2a m c) (Glue.glue_w2b m c) eb _ _
  · rw [dif_neg hlt, dif_neg hlt, e0]

end Cert.KernelIdeal.Val

end
-- ==== Proof.RefValue.lean ====
/-
  The reference program, read entry by entry, is the specified function.

  The reference states one graph-convolution layer as: the product of the adjacency with the features, divided
  row by row by the neighbour count plus ε; the features and that quotient joined side by side into rows of
  length 256; the product of those rows with the transposed weight; the bias added; the maximum with zero. It
  states the layer twice (the second time on the first layer's result) and joins the second layer's result with
  the input features, side by side.

  Each stage is read at an index. The only law used is that a sum of 256 terms is the sum of its first 128 terms
  plus the sum of its last 128 terms; in the first half the joined row holds the features and in the second half
  the neighbour means, which is how the specification writes the layer.
-/
import proofs.«122714_g32341103738939_cont_8to1_b_155_6_alg».proof.Proof.Gen.ReferenceIdeal.Read
import proofs.«122714_g32341103738939_cont_8to1_b_155_6_alg».proof.Proof.Spec
import Idealize.ShloMosaic.Lib.ValueIdx
import Idealize.ShloMosaic.Lib.Pipeline.Value
import Idealize.ShloMosaic.PureOps.Ideal.Laws

noncomputable section

open scoped BigOperators

namespace Cert.RefValue

open Cert.ReferenceIdeal Cert.ReferenceIdeal.Gen Cert.ReferenceIdeal.Read Idealize.ShloMosaic Idealize.ShloMosaic.ValueIdx

/-- A sum over 256 terms is the sum over its first 128 plus the sum over its last 128 terms. -/
theorem sum_halves (f : Fin 256 → EReal) :
    ∑ k : Fin 256, f k = ∑ k : Fin 128, f (Cert.Spec.lo k) + ∑ k : Fin 128, f (Cert.Spec.hi k) := by
  have e := Fin.sum_univ_add (M := EReal) (a := 128) (b := 128) f
  have hlo : ∀ k : Fin 128, Fin.castAdd 128 k = Cert.Spec.lo k := fun k => Fin.ext rfl
  have hhi : ∀ k : Fin 128, Fin.natAdd 128 k = Cert.Spec.hi k := fun k => Fin.ext rfl
  simp only [hlo, hhi] at e
  exact e

variable (h : (⟨S10000x128, .f32⟩ : BufTy).Contents (Elt Ideal)) (adj : (⟨S10000x10000, .f32⟩ : BufTy).Contents (Elt Ideal))
  (nn : (⟨S10000, .f32⟩ : BufTy).Contents (Elt Ideal)) (W : (⟨S128x256, .f32⟩ : BufTy).Contents (Elt Ideal))
  (b : (⟨S128, .f32⟩ : BufTy).Contents (Elt Ideal))

/-- The divisor at row r (any column) is the neighbour count of r plus ε. -/
theorem den_apply (r : Fin 10000) (k : Fin 128) :
    val_main_v4 (F := Ideal) nn (ix2 r k) = nn (ix1 r) + Cert.Spec.eps := by
  rw [val_main_v4_apply, val_main_v3_apply, val_main_v1_apply, val_main_v2_apply, val_main_cst_apply]
  have e : idx_main_v1 (idx_main_v4 (ix2 r k)) = ix1 r := funext fun a => Fin.ext (by
    match a with
    | ⟨0, _⟩ => rfl)
  rw [e]
  rfl

/-- The quotient stage at (r, k) is the neighbour mean of node r in feature k. -/
theorem quot_apply (r : Fin 10000) (k : Fin 128) :
    val_main_v5 (F := Ideal) h adj nn (ix2 r k) = Cert.Spec.nbr h adj nn r k := by
  rw [val_main_v5_apply]
  show Ideal.div (val_main_v0 (F := Ideal) h adj (ix2 r k)) (val_main_v4 (F := Ideal) nn (ix2 r k)) = _
  rw [val_main_v0_apply, den_apply]
  unfold Cert.Spec.nbr
  congr 1
  refine Finset.sum_congr rfl fun l _ => ?_
  have el : lidx_main_v0 (ix2 r k) l = ix2 r l := funext fun a => Fin.ext (by
    match a with
    | ⟨0, _⟩ => rfl
    | ⟨1, _⟩ => rfl)
  have er : ridx_main_v0 (ix2 r k) l = ix2 l k := funext fun a => Fin.ext (by
    match a with
    | ⟨0, _⟩ => rfl
    | ⟨1, _⟩ => rfl)
  rw [el, er]

/-- The joined row at a column of its first half is the feature row. -/
theorem cat_lo (r : Fin 10000) (k : Fin 128) :
    val_main_v6 (F := Ideal) h adj nn (ix2 r (Cert.Spec.lo k)) = h (ix2 r k) := by
  unfold val_main_v6
  exact concatenate_pair_apply_left 1 h (val_main_v5 (F := Ideal) h adj nn)
    concatenates_S10000x128_S10000x128_S10000x256_d1 _ rfl (ix2 r k) (fun c => by
      match c with
      | ⟨0, _⟩ => rfl
      | ⟨1, _⟩ => rfl)

/-- The joined row at a column of its second half is the quotient, 128 columns earlier. -/
theorem cat_hi (r : Fin 10000) (k : Fin 128) :
    val_main_v6 (F := Ideal) h adj nn (ix2 r (Cert.Spec.hi k)) = val_main_v5 (F := Ideal) h adj nn (ix2 r k) := by
  unfold val_main_v6
  exact concatenate_pair_apply_right 1 h (val_main_v5 (F := Ideal) h adj nn)
    concatenates_S10000x128_S10000x128_S10000x256_d1 _ rfl rfl (ix2 r k)
    (fun c hc => by
      match c with
      | ⟨0, _⟩ => rfl
      | ⟨1, _⟩ => exact absurd rfl hc)
    (Nat.add_comm _ _)

/-- The transposed weight at (c, j) is the weight at (j, c). -/
theorem wT_apply (j : Fin 128) (c : Fin 256) :
    val_main_v7 (F := Ideal) W (ix2 c j) = W (ix2 j c) := by
  rw [val_main_v7_apply]
  have e : idx_main_v7 (ix2 c j) = ix2 j c := funext fun a => Fin.ext (by
    match a with
    | ⟨0, _⟩ => rfl
    | ⟨1, _⟩ => rfl)
  rw [e]

/-- The product of the joined rows with the transposed weight, written as the sum of its two halves. -/
theorem prod_apply (r : Fin 10000) (j : Fin 128) :
    val_main_v8 (F := Ideal) h adj nn W (ix2 r j)
      = (∑ k : Fin 128, h (ix2 r k) * W (ix2 j (Cert.Spec.lo k)))
        + (∑ k : Fin 128, Cert.Spec.nbr h adj nn r k * W (ix2 j (Cert.Spec.hi k))) := by
  rw [val_main_v8_apply, sum_halves]
  have el : ∀ c : Fin 256, lidx_main_v8 (ix2 r j) c = ix2 r c := fun c => funext fun a => Fin.ext (by
    match a with
    | ⟨0, _⟩ => rfl
    | ⟨1, _⟩ => rfl)
  have er : ∀ c : Fin 256, ridx_main_v8 (ix2 r j) c = ix2 c j := fun c => funext fun a => Fin.ext (by
    match a with
    | ⟨0, _⟩ => rfl
    | ⟨1, _⟩ => rfl)
  congr 1
  · refine Finset.sum_congr rfl fun k _ => ?_
    rw [el, er, cat_lo, wT_apply]
  · refine Finset.sum_congr rfl fun k _ => ?_
    rw [el, er, cat_hi, quot_apply, wT_apply]

/-- The bias, broadcast over the rows, at (r, j) is the bias at j. -/
theorem bias_apply (r : Fin 10000) (j : Fin 128) :
    val_main_v10 (F := Ideal) b (ix2 r j) = b (ix1 j) := by
  rw [val_main_v10_apply, val_main_v9_apply]
  have e : idx_main_v9 (idx_main_v10 (ix2 r j)) = ix1 j := funext fun a => Fin.ext (by
    match a with
    | ⟨0, _⟩ => rfl)
  rw [e]

/-- The zero the maximum is taken with is the zero word at every index. -/
theorem zero_apply (i : S10000x128.Idx) :
    val_main_call0_v0 (F := Ideal) i = Cert.Spec.zero := by
  rw [val_main_call0_v0_apply, val_main_call0_cst_apply]
  rfl

/-- One layer of the reference is the specified layer. -/
theorem layer_eq :
    val_main_v12 (F := Ideal) h adj nn W b = Cert.Spec.layerArr h adj nn W b := by
  funext i
  obtain ⟨r, j, rfl⟩ : ∃ (r : Fin 10000) (j : Fin 128), i = ix2 r j := ⟨i 0, i 1, eq_ix2 i⟩
  rw [val_main_v12_apply, val_main_v11_apply]
  show max (val_main_v8 (F := Ideal) h adj nn W (ix2 r j) + val_main_v10 (F := Ideal) b (ix2 r j))
      (val_main_call0_v0 (F := Ideal) (ix2 r j)) = _
  rw [prod_apply, bias_apply, zero_apply]
  rfl

/-- The reference's second layer is its first layer's stages, applied to the first layer's result with the second
    weight and bias. -/
theorem second_layer
    (x : (⟨S10000x128, .f32⟩ : BufTy).Contents (Elt Ideal)) (W1 : (⟨S128x256, .f32⟩ : BufTy).Contents (Elt Ideal))
    (b1 : (⟨S128, .f32⟩ : BufTy).Contents (Elt Ideal)) (W2 : (⟨S128x256, .f32⟩ : BufTy).Contents (Elt Ideal))
    (b2 : (⟨S128, .f32⟩ : BufTy).Contents (Elt Ideal)) :
    val_main_v25 (F := Ideal) x adj nn W1 b1 W2 b2
      = val_main_v12 (F := Ideal) (val_main_v12 (F := Ideal) x adj nn W1 b1) adj nn W2 b2 := rfl

/-- The reference is the specified function: two layers in columns 0..127, the input features in columns 128..255. -/
theorem ref_eq
    (x : (⟨Cert.ReferenceIdeal.S10000x128, .f32⟩ : BufTy).Contents (Elt Ideal)) (adj : (⟨Cert.ReferenceIdeal.S10000x10000, .f32⟩ : BufTy).Contents (Elt Ideal))
    (nn : (⟨Cert.ReferenceIdeal.S10000, .f32⟩ : BufTy).Contents (Elt Ideal)) (W1 : (⟨Cert.ReferenceIdeal.S128x256, .f32⟩ : BufTy).Contents (Elt Ideal)) (b1 : (⟨Cert.ReferenceIdeal.S128, .f32⟩ : BufTy).Contents (Elt Ideal))
    (W2 : (⟨Cert.ReferenceIdeal.S128x256, .f32⟩ : BufTy).Contents (Elt Ideal)) (b2 : (⟨Cert.ReferenceIdeal.S128, .f32⟩ : BufTy).Contents (Elt Ideal)) :
    Cert.ReferenceIdeal.Read.val_main_v26 (F := Ideal) x adj nn W1 b1 W2 b2 = Cert.Spec.out x adj nn W1 b1 W2 b2 := by
  funext i
  obtain ⟨r, c, rfl⟩ : ∃ (r : Fin 10000) (c : Fin 256), i = ix2 r c := ⟨i 0, i 1, eq_ix2 i⟩
  unfold val_main_v26 Cert.Spec.out
  by_cases hc : c.val < 128
  · -- a column of the first half: the second layer at that column
    rw [dif_pos (show ((ix2 r c : Cert.Spec.SNx2D.Idx) 1).val < 128 from hc)]
    refine (concatenate_pair_apply_left 1 (val_main_v25 (F := Ideal) x adj nn W1 b1 W2 b2) x
      concatenates_S10000x128_S10000x128_S10000x256_d1 _ rfl (ix2 r ⟨c.val, hc⟩) (fun a => by
        match a with
        | ⟨0, _⟩ => rfl
        | ⟨1, _⟩ => rfl)).trans ?_
    rw [second_layer, layer_eq, layer_eq]
    rfl
  · -- a column of the second half: the input features, 128 columns earlier
    rw [dif_neg (show ¬ ((ix2 r c : Cert.Spec.SNx2D.Idx) 1).val < 128 from hc)]
    have hc2 : c.val - 128 < 128 := by have := c.isLt; omega
    refine (concatenate_pair_apply_right 1 (val_main_v25 (F := Ideal) x adj nn W1 b1 W2 b2) x
      concatenates_S10000x128_S10000x128_S10000x256_d1 _ rfl rfl (ix2 r ⟨c.val - 128, hc2⟩)
      (fun a ha => by
        match a with
        | ⟨0, _⟩ => rfl
        | ⟨1, _⟩ => exact absurd rfl ha)
      (by show c.val - 128 + 128 = c.val; omega)).trans ?_
    rfl

end Cert.RefValue

end
-- ==== Proof.lean ====
/-
  Two graph-convolution layers on 10000 nodes, as one fused kernel per layer, against the plain array program.

  A layer is  f = max (concat [h, (adj · h) / (nn + ε)] · Wᵀ + b) 0 : the node features side by side with the mean of
  the neighbours' features, times a 128 × 256 weight. The kernel never forms the 256-wide rows. It splits the weight
  into its column halves W = [Wa | Wb] and computes  h · Waᵀ + ((adj · h) / (nn + ε)) · Wbᵀ + b  a slab of 400 rows at
  a time, 25 slabs; the second layer's kernel also writes the input features beside its result, which is the final
  concatenation. On the extended reals, where a change of float format is the identity and every operation is exact,
  the two programs are one function: a sum of 256 products is the sum of its first 128 and its last 128, in any
  commutative additive monoid, so nothing is asked of the inputs and the precondition is never opened. The constant
  ε is one single-precision word in both programs and is never evaluated; the division is the same total function on
  both sides, whatever the divisor.

  The claims. Each kernel program runs to the end without a fault and leaves its arguments alone (the frames): each
  of its two regions is a pipeline over a 25-point grid whose body loads whole staging buffers, computes, and stores
  over the whole output block; two windows of each region read one array, which they hold in two halves. The
  idealized kernel is the printed kernel's own text read at the extended reals (no rewrite was applied). And the
  idealized kernel and the idealized reference, from memories that agree on the arguments, end with equal results.
-/
import proofs.«122714_g32341103738939_cont_8to1_b_155_6_alg».proof.Defs
import proofs.«122714_g32341103738939_cont_8to1_b_155_6_alg».proof.Proof.Gen.Kernel
import proofs.«122714_g32341103738939_cont_8to1_b_155_6_alg».proof.Proof.Gen.KernelIdeal
import proofs.«122714_g32341103738939_cont_8to1_b_155_6_alg».proof.Proof.Gen.ReferenceIdeal
import proofs.«122714_g32341103738939_cont_8to1_b_155_6_alg».proof.Proof.Gen.Pre_finite_inputs
import proofs.«122714_g32341103738939_cont_8to1_b_155_6_alg».proof.Proof.Gen.ReferenceIdeal.Run
import proofs.«122714_g32341103738939_cont_8to1_b_155_6_alg».proof.Proof.Gen.ReferenceIdeal.Read
import proofs.«122714_g32341103738939_cont_8to1_b_155_6_alg».proof.Proof.KFrameRun
import proofs.«122714_g32341103738939_cont_8to1_b_155_6_alg».proof.Proof.FrameRun
import proofs.«122714_g32341103738939_cont_8to1_b_155_6_alg».proof.Proof.KernelValue
import proofs.«122714_g32341103738939_cont_8to1_b_155_6_alg».proof.Proof.RefValue
import Idealize.ShloMosaic.Adequacy
import Idealize.ShloMosaic.Init

noncomputable section

namespace Cert.Proof

open Idealize.ShloMosaic Idealize.SL.Sem

/-- The kernel as printed runs and leaves its arguments unchanged: its run, the result forgotten. -/
theorem frame_kernel : Cert.frame_Kernel := fun m ρ _ => Cert.Kernel.Run.frame m ρ

/-- So does the idealized kernel. -/
theorem frame_kernelIdeal : Cert.frame_KernelIdeal := fun m ρ _ => Cert.KernelIdeal.Run.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten: the idealization is the program's own text. -/
theorem preserves : Cert.preserves_Kernel_KernelIdeal := trivial

/-- Both runs end at the specified function of the arguments: the kernel's result buffer by its two regions'
    write-backs, the reference's by its operations read one at a time. -/
theorem algebraic : Cert.algebraic_KernelIdeal_ReferenceIdeal := by
  intro m ρ m' ρ' _ hagree
  refine ⟨fun c => Cert.KernelIdeal.Run.o4 m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.RefValue.ref_eq,
    (hagree c).1, (hagree c).2.1, (hagree c).2.2.1, (hagree c).2.2.2.1, (hagree c).2.2.2.2.1, (hagree c).2.2.2.2.2.1, (hagree c).2.2.2.2.2.2]
  exact (Cert.KernelIdeal.Val.result m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
